-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S500x256 : Shape := ⟨2, ![500, 256]⟩
abbrev S256 : Shape := ⟨1, ![256]⟩
abbrev S256x128 : Shape := ⟨2, ![256, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S512x10 : Shape := ⟨2, ![512, 10]⟩
abbrev S10 : Shape := ⟨1, ![10]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S512x10 .f32) (main_arg13 : FVec F S10 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x10 .f32 := Host.absf main_arg12
  let main_cst_20 : FVec F S_ .f32 := constant S_ .f32 0x7F800000#32
  let main_v55 : FVec F S512x10 .f32 := broadcastInDim S512x10 ![] bcast_S_S512x10 main_cst_20
  let main_v56 : IVec S512x10 1 := cmpf .olt main_v54 main_v55
  let main_c_21 : IVec S_ 1 := constantI S_ 1 1#1
  let main_v57 : IVec S_ 1 := (fun x v => Host.reduce IntOp.andi x v reducesTo_S512x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S512x128 .f32) (main_arg9 : FVec F S128 .f32) (main_arg10 : FVec F S128x512 .f32) (main_arg11 : FVec F S512 .f32) (main_arg12 : FVec F S512x10 .f32) (main_arg13 : FVec F S10 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x512 .f32 := Host.absf main_arg10
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_v48 main_v49 main_v50

def fn_part1 {F : FTy → Type} [FloatOps F] (main_arg5 : FVec F S128 .f32) (main_arg6 : FVec F S128x512 .f32) (main_arg7 : FVec F S512 .f32) (main_arg8 : FVec F S512x128 .f32) (main_arg9 : FVec F S128 .f32) (main_arg10 : FVec F S128x512 .f32) (main_arg11 : FVec F S512 .f32) (main_arg12 : FVec F S512x10 .f32) (main_arg13 : FVec F S10 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg6
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x500 .f32) (main_arg1 : IVec S2x800000 32) (main_arg2 : FVec F S500x256 .f32) (main_arg3 : FVec F S256 .f32) (main_arg4 : FVec F S256x128 .f32) (main_arg5 : FVec F S128 .f32) (main_arg6 : FVec F S128x512 .f32) (main_arg7 : FVec F S512 .f32) (main_arg8 : FVec F S512x128 .f32) (main_arg9 : FVec F S128 .f32) (main_arg10 : FVec F S128x512 .f32) (main_arg11 : FVec F S512 .f32) (main_arg12 : FVec F S512x10 .f32) (main_arg13 : FVec F S10 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x256 .f32 := Host.absf main_arg2
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_v13 main_v16
-- ==== Kernel.lean ====
abbrev S50000x500 : Shape := ⟨2, ![50000, 500]⟩
abbrev S2x800000 : Shape := ⟨2, ![2, 800000]⟩
abbrev S500x256 : Shape := ⟨2, ![500, 256]⟩
abbrev S256 : Shape := ⟨1, ![256]⟩
abbrev S256x128 : Shape := ⟨2, ![256, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S512x10 : Shape := ⟨2, ![512, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x500 : Shape := ⟨2, ![2000, 500]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩
abbrev S1x10 : Shape := ⟨2, ![1, 10]⟩
abbrev S50000x10 : Shape := ⟨2, ![50000, 10]⟩
abbrev S2000x10 : Shape := ⟨2, ![2000, 10]⟩

abbrev nBuf : Space → Nat
  | .hbm => 135
  | .vmem => 26
  | .smem => 0
  | _ => 0

abbrev hbmTy0_0 (i : Nat) : BufTy := match i % 128 with
  | 0 => ⟨S50000x500, .f32⟩
  | 1 => ⟨S2x800000, .i32⟩
  | 2 => ⟨S500x256, .f32⟩
  | 3 => ⟨S256, .f32⟩
  | 4 => ⟨S256x128, .f32⟩
  | 5 => ⟨S128, .f32⟩
  | 6 => ⟨S128x512, .f32⟩
  | 7 => ⟨S512, .f32⟩
  | 8 => ⟨S512x128, .f32⟩
  | 9 => ⟨S128, .f32⟩
  | 10 => ⟨S128x512, .f32⟩
  | 11 => ⟨S512, .f32⟩
  | 12 => ⟨S512x10, .f32⟩
  | 13 => ⟨S10, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S50000x500, .bf16⟩
  | 36 => ⟨S500x256, .bf16⟩
  | 37 => ⟨S50000x256, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .bf16⟩
  | 80 => ⟨S256x128, .bf16⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x1, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .bf16⟩
  | 124 => ⟨S128x512, .bf16⟩
  | 125 => ⟨S512x128, .bf16⟩
  | 126 => ⟨S1x512, .f32⟩
  | 127 => ⟨S1x128, .f32⟩
  | _ => ⟨S50000x500, .f32⟩

abbrev hbmTy0_1 (i : Nat) : BufTy := match i % 128 with
  | 0 => ⟨S50000x128, .f32⟩
  | 1 => ⟨S50000x128, .bf16⟩
  | 2 => ⟨S128x512, .bf16⟩
  | 3 => ⟨S512x10, .bf16⟩
  | 4 => ⟨S1x512, .f32⟩
  | 5 => ⟨S1x10, .f32⟩
  | 6 => ⟨S50000x10, .f32⟩
  | _ => ⟨S50000x500, .f32⟩

abbrev hbmTy (i : Nat) : BufTy := match i / 128 with
  | 0 => hbmTy0_0 i
  | 1 => hbmTy0_1 i
  | _ => ⟨S50000x500, .f32⟩

abbrev bufTy : (tb : Table) → Fin (tcTables nBuf tb) → BufTy
  | .hbm, ⟨i, _⟩ => hbmTy i
  | .local _ .vmem, ⟨0, _⟩ => ⟨S2000x500, .bf16⟩
  | .local _ .vmem, ⟨1, _⟩ => ⟨S2000x500, .bf16⟩
  | .local _ .vmem, ⟨2, _⟩ => ⟨S500x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S256x128, .bf16⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x512, .bf16⟩
  | .local _ .vmem, ⟨13, _⟩ => ⟨S1x512, .f32⟩
  | .local _ .vmem, ⟨14, _⟩ => ⟨S512x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .bf16⟩
  | .local _ .vmem, ⟨19, _⟩ => ⟨S2000x128, .bf16⟩
  | .local _ .vmem, ⟨20, _⟩ => ⟨S128x512, .bf16⟩
  | .local _ .vmem, ⟨21, _⟩ => ⟨S1x512, .f32⟩
  | .local _ .vmem, ⟨22, _⟩ => ⟨S512x10, .bf16⟩
  | .local _ .vmem, ⟨23, _⟩ => ⟨S1x10, .f32⟩
  | .local _ .vmem, ⟨24, _⟩ => ⟨S2000x10, .f32⟩
  | .local _ .vmem, ⟨25, _⟩ => ⟨S2000x10, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_c_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call2_cst : Ref sig .tc := ⟨.hbm, 120, rfl⟩
abbrev main_call2_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x500_S2000x500_0_0 : ∀ a, (![0, 0] : Fin 2 → Nat) a + S2000x500.size a ≤ S2000x500.size a
  h_S2000x500 : 0 < S2000x500.numel
  shapeCasts_S2000x500_S2000x500 : S2000x500.ShapeCasts S2000x500
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S512_S1x512 : S512.ShapeCasts S1x512
  shapeCasts_S128_S1x128 : S128.ShapeCasts S1x128
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S10_S1x10 : S10.ShapeCasts S1x10
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  scatter_S50000_S850000x1_S850000_n_0_0_1_wf : ScatterDims.WF S50000 S850000x1 S850000 [] [0] [0] 1
  dot_S2000x500_S500x256_S2000x256_1_0_0_1_n_n_wf : DotDims.WF S2000x500 S500x256 S2000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  dot_S2000x512_S512x10_S2000x10_1_0_0_1_n_n_wf : DotDims.WF S2000x512 S512x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .bf16 = 32 ∨ (Rect.block (s := S50000x500) S2000x500.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x256.size a ≤ S500x256.size a
  hwx0_1 : ∀ i : grid0.Coords, EltTy.bits .bf16 = 32 ∨ (Rect.block (s := S500x256) S500x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .bf16 = 32 ∨ (Rect.block (s := S128x512) S128x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .bf16 = 32 ∨ (Rect.block (s := S512x128) S512x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S128x512.size a
  hwx3_1 : ∀ i : grid3.Coords, EltTy.bits .bf16 = 32 ∨ (Rect.block (s := S128x512) S128x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .bf16 = 32 ∨ (Rect.block (s := S512x10) S512x10.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x10.size a ≤ S50000x10.size a
  hwx3_5 : ∀ i : grid3.Coords, EltTy.bits .f32 = 32 ∨ (Rect.block (s := S50000x10) S2000x10.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x500_S500x256_S2000x256_1_0_0_1_n_n : DotDims S2000x500 S500x256 S2000x256 where
  lhsContracting := [1]
  rhsContracting := [0]
  lhsNonContracting := [0]
  rhsNonContracting := [1]
  lhsBatch := []
  rhsBatch := []
  wf := dot_S2000x500_S500x256_S2000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x512_S512x10_S2000x10_1_0_0_1_n_n : DotDims S2000x512 S512x10 S2000x10 where
  lhsContracting := [1]
  rhsContracting := [0]
  lhsNonContracting := [0]
  rhsNonContracting := [1]
  lhsBatch := []
  rhsBatch := []
  wf := dot_S2000x512_S512x10_S2000x10_1_0_0_1_n_n_wf

abbrev win0_0 : Pipeline.Window sig grid0 :=
  Pipeline.Window.ofSpec (Memref.whole main_v15) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S500x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v85) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v91) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S128x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S512x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S2000x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S500x256 : Shape := ⟨2, ![500, 256]⟩
abbrev S256 : Shape := ⟨1, ![256]⟩
abbrev S256x128 : Shape := ⟨2, ![256, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S512x10 : Shape := ⟨2, ![512, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x512 : Shape := ⟨2, ![50000, 512]⟩
abbrev S1x512 : Shape := ⟨2, ![1, 512]⟩
abbrev S50000x1 : Shape := ⟨2, ![50000, 1]⟩
abbrev S50000x10 : Shape := ⟨2, ![50000, 10]⟩
abbrev S1x10 : Shape := ⟨2, ![1, 10]⟩

abbrev nBuf : Space → Nat
  | .hbm => 165
  | .vmem => 0
  | .smem => 0
  | _ => 0

abbrev hbmTy0_0 (i : Nat) : BufTy := match i % 128 with
  | 0 => ⟨S50000x500, .f32⟩
  | 1 => ⟨S2x800000, .i32⟩
  | 2 => ⟨S500x256, .f32⟩
  | 3 => ⟨S256, .f32⟩
  | 4 => ⟨S256x128, .f32⟩
  | 5 => ⟨S128, .f32⟩
  | 6 => ⟨S128x512, .f32⟩
  | 7 => ⟨S512, .f32⟩
  | 8 => ⟨S512x128, .f32⟩
  | 9 => ⟨S128, .f32⟩
  | 10 => ⟨S128x512, .f32⟩
  | 11 => ⟨S512, .f32⟩
  | 12 => ⟨S512x10, .f32⟩
  | 13 => ⟨S10, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S50000x256, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x512, .f32⟩
  | 120 => ⟨S1x512, .f32⟩
  | 121 => ⟨S50000x512, .f32⟩
  | 122 => ⟨S50000x512, .f32⟩
  | 123 => ⟨S_, .f32⟩
  | 124 => ⟨S50000x512, .f32⟩
  | 125 => ⟨S50000x512, .f32⟩
  | 126 => ⟨S50000x128, .f32⟩
  | 127 => ⟨S1x128, .f32⟩
  | _ => ⟨S50000x500, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000, .f32⟩
  | 5 => ⟨S50000x1, .f32⟩
  | 6 => ⟨S50000x1, .f32⟩
  | 7 => ⟨S_, .f32⟩
  | 8 => ⟨S50000x1, .f32⟩
  | 9 => ⟨S50000x1, .f32⟩
  | 10 => ⟨S50000x128, .f32⟩
  | 11 => ⟨S50000x128, .f32⟩
  | 12 => ⟨S50000x512, .f32⟩
  | 13 => ⟨S1x512, .f32⟩
  | 14 => ⟨S50000x512, .f32⟩
  | 15 => ⟨S50000x512, .f32⟩
  | 16 => ⟨S_, .f32⟩
  | 17 => ⟨S50000x512, .f32⟩
  | 18 => ⟨S50000x512, .f32⟩
  | 19 => ⟨S50000x10, .f32⟩
  | 20 => ⟨S1x10, .f32⟩
  | 21 => ⟨S50000x10, .f32⟩
  | 22 => ⟨S50000x10, .f32⟩
  | 23 => ⟨S_, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x10, .f32⟩
  | 30 => ⟨S50000x10, .f32⟩
  | 31 => ⟨S50000x10, .f32⟩
  | 32 => ⟨S_, .f32⟩
  | 33 => ⟨S50000, .f32⟩
  | 34 => ⟨S50000x1, .f32⟩
  | 35 => ⟨S50000x10, .f32⟩
  | 36 => ⟨S50000x10, .f32⟩
  | _ => ⟨S50000x500, .f32⟩

abbrev hbmTy (i : Nat) : BufTy := match i / 128 with
  | 0 => hbmTy0_0 i
  | 1 => hbmTy0_1 i
  | _ => ⟨S50000x500, .f32⟩

abbrev bufTy : (tb : Table) → Fin (tcTables nBuf tb) → BufTy
  | .hbm, ⟨i, _⟩ => hbmTy i
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call3_cst : Ref sig .tc := ⟨.hbm, 123, rfl⟩
abbrev main_call3_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call4_v0 : Ref sig .tc := ⟨.hbm, 130, rfl⟩
abbrev main_call4_cst : Ref sig .tc := ⟨.hbm, 131, rfl⟩
abbrev main_call4_v1 : Ref sig .tc := ⟨.hbm, 132, rfl⟩
abbrev main_call4_v2 : Ref sig .tc := ⟨.hbm, 133, rfl⟩
abbrev main_v90 : Ref sig .tc := ⟨.hbm, 134, rfl⟩
abbrev main_cst_16 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call5_cst : Ref sig .tc := ⟨.hbm, 144, rfl⟩
abbrev main_call5_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_17 : Ref sig .tc := ⟨.hbm, 151, rfl⟩
abbrev main_v104 : Ref sig .tc := ⟨.hbm, 152, rfl⟩
abbrev main_cst_18 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_19 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  bcast_S50000x1_S50000x10_0_1 : S50000x1.BroadcastsInDim S50000x10 (![0, 1] : Fin 2 → Fin S50000x10.rank)
  scatter_S50000_S850000x1_S850000_n_0_0_1_wf : ScatterDims.WF S50000 S850000x1 S850000 [] [0] [0] 1
  dot_S50000x500_S500x256_S50000x256_1_0_0_1_n_n_wf : DotDims.WF S50000x500 S500x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []
  dot_S50000x512_S512x10_S50000x10_1_0_0_1_n_n_wf : DotDims.WF S50000x512 S512x10 S50000x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x500_S500x256_S50000x256_1_0_0_1_n_n : DotDims S50000x500 S500x256 S50000x256 where
  lhsContracting := [1]
  rhsContracting := [0]
  lhsNonContracting := [0]
  rhsNonContracting := [1]
  lhsBatch := []
  rhsBatch := []
  wf := dot_S50000x500_S500x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x512_S512x10_S50000x10_1_0_0_1_n_n : DotDims S50000x512 S512x10 S50000x10 where
  lhsContracting := [1]
  rhsContracting := [0]
  lhsNonContracting := [0]
  rhsNonContracting := [1]
  lhsBatch := []
  rhsBatch := []
  wf := dot_S50000x512_S512x10_S50000x10_1_0_0_1_n_n_wf

class Facts : Prop extends Facts₀ where

variable [Facts]
-- ==== Proof.KRun.lean ====
/-
  The idealized kernel program's run, with its two results named.

  @main is fourteen segments: stretches of host operations and the four pipelined regions. The buffer contents at the
  segment boundaries are a fold from the launch memory: a host stretch applies its operations, a region replaces its
  arrays by what its write-backs leave and keeps every other buffer. Every weakly fair execution terminates with every
  unscoped buffer at the last boundary's contents; read at the two result buffers and at the fourteen argument buffers
  (which no segment writes), that is the statement below.
-/
import proofs.«180019_j14834817040879_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the two
    result buffers at the last boundary's contents and the argument arrays as launched. -/
theorem run : θ_run defs (onTc (τ := τ) (main (F := F))) ⟨m, fun _ => 0, ρ⟩ (fun r => ∀ c : Dev nD,
      r.2.mem ((c.tc : Thread nD τ).loc main_v90) = W14 m ρ c (Proc.devRef .tc main_v90)
      ∧ r.2.mem ((c.tc : Thread nD τ).loc main_v96) = W14 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=

  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v90 (by decide)),
       h c _ (mem_uc main_v96 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.ValueRun

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«180019_j14834817040879_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«180019_j14834817040879_1_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.LibTwoLayer.lean ====
/-
  A two-layer perceptron on the rows of an array, on the extended reals.

  `hidden h wa ba` is the first layer: the rows of `h` times `wa`, plus the one row `ba`, floored at zero.
  `outFloor` and `outPlain` are the second layer on top of it, with and without the floor at zero. An entry of any of
  them depends on its own row of `h` only, so a block of rows of the result is the result of that block of rows.

  Two spellings denote these functions. Inside a kernel body a block meets the weights as a matrix-unit product
  (operands narrowed to bf16, which changes nothing on the extended reals) accumulated into the zero splat, plus the
  one-row bias broadcast over the rows, with a scalar splat as the floor. On the host the product is a `dot_general`,
  the bias a vector broadcast twice, the floor a broadcast scalar.
-/
import proofs.«180019_j14834817040879_1_alg».proof.Proof.LibPlainDot
import proofs.«180019_j14834817040879_1_alg».proof.Proof.LibRowBias
import proofs.«180019_j14834817040879_1_alg».proof.Proof.LibRowBiasHost
import proofs.«180019_j14834817040879_1_alg».proof.Proof.LibBodyBias
import Idealize.ShloMosaic.Lib.Pipeline.Value
import Idealize.ShloMosaic.Lib.ValueIdx

noncomputable section

namespace Cert.Mlp

open Idealize.ShloMosaic Idealize.ShloMosaic.ValueIdx Cert.LibPlainDot Cert.LibRowBias Cert.LibBodyBias

/-- Zero, as the word of the float literal `0.0` reads. -/
abbrev zero : EReal := Ideal.ofBits .f32 0x00000000#32

/-- The entrywise sum of two arrays of one shape. -/
def rowsSum {s : Shape} (a b : s.Idx → EReal) : s.Idx → EReal := fun i => a i + b i

/-- The first layer: rows times weights, plus the bias row, floored at zero. -/
def hidden {M K N : ℕ} (h : (⟨2, ![M, K]⟩ : Shape).Idx → EReal) (wa : (⟨2, ![K, N]⟩ : Shape).Idx → EReal)
    (ba : (⟨2, ![1, N]⟩ : Shape).Idx → EReal) : (⟨2, ![M, N]⟩ : Shape).Idx → EReal :=
  rowBiasFloor zero (rowsTimes h wa) ba

/-- Both layers, the second floored at zero too. -/
def outFloor {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBiasFloor zero (rowsTimes (hidden h wa ba) wb) bb

/-- Both layers, the second without a floor. -/
def outPlain {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBias (rowsTimes (hidden h wa ba) wb) bb

/-! ## A block of rows -/

/-- Rows `o, …, o + R - 1` of the first layer are the first layer of those rows. -/
theorem hidden_rows {M R K N : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (hh : ∀ (y : Fin R) (k : Fin K) (hlt : o + y.val < M), hb (ix2 y k) = h (ix2 (⟨o + y.val, hlt⟩ : Fin M) k))
    (y : (⟨2, ![R, N]⟩ : Shape).Idx) (i : (⟨2, ![M, N]⟩ : Shape).Idx) (h0 : (i 0).val = o + (y 0).val) (h1 : (i 1).val = (y 1).val) :
    hidden hb wa ba y = hidden h wa ba i :=
  rowBiasFloor_rows zero o (rowsTimes h wa) (rowsTimes hb wa) ba
    (fun p q hlt => rowsTimes_rows o h hb wa hh (ix2 p q) (ix2 (⟨o + p.val, hlt⟩ : Fin M) q) rfl rfl) y i h0 h1

/-- The same for both layers with the floor. -/
theorem outFloor_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outFloor hb wa ba wb bb y = outFloor h wa ba wb bb i :=
  rowBiasFloor_rows zero o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-- The same for both layers without the second floor. -/
theorem outPlain_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outPlain hb wa ba wb bb y = outPlain h wa ba wb bb i :=
  rowBias_rows o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-! ## The kernel bodies' spelling of one layer -/

/-- A block times the weights on the matrix unit (both narrowed to bf16: the identity here), plus the bias row broadcast
    over the rows, floored at a zero splat: one floored layer. -/
theorem body_layer_floor {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    maximumf (addf (matmul d none (truncf .bf16 a hlt) (truncf .bf16 w hlt) (constant ⟨2, ![R, N]⟩ .f32 0x00000000#32))
        (broadcastTo ⟨2, ![R, N]⟩ b hbc)) (broadcast ⟨2, ![R, N]⟩ (Scalar.ofBits (F := Ideal) .f32 0x00000000#32))
      = rowBiasFloor zero (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q)) zero = _
  rw [broadcastRow_apply, matmul_zero_plain]
  rfl

/-- The same without the floor. -/
theorem body_layer_plain {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    addf (matmul d none (truncf .bf16 a hlt) (truncf .bf16 w hlt) (constant ⟨2, ![R, N]⟩ .f32 0x00000000#32))
        (broadcastTo ⟨2, ![R, N]⟩ b hbc)
      = rowBias (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q) = _
  rw [broadcastRow_apply, matmul_zero_plain]
  rfl

/-! ## The host's spelling of one layer -/

/-- A `dot_general`, plus a vector broadcast to a row and then over the rows, floored at a broadcast zero: one floored
    layer, its bias row the vector reshaped to one row. -/
theorem host_layer_floor {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf (Host.dotGeneral d none a w) (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 0x00000000#32))
      = rowBiasFloor zero (rowsTimes a w) (shapeCast ⟨2, ![1, N]⟩ x hc) := by
  subst hd
  rw [max_addf_bcastRow 0x00000000#32 _ x h0 h1 h2 hc]
  show rowBiasFloor zero (FloatOps.dotGeneral (DotDims.plain M K N) none .single a w) _ = _
  rw [dotGeneral_plain]

/-- The same without the floor. -/
theorem host_layer_plain {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a w) (broadcastInDim ⟨2, ![M, N]⟩ ![0, 1] h2 (broadcastInDim ⟨2, ![1, N]⟩ ![1] h1 x))
      = rowBias (rowsTimes a w) (shapeCast ⟨2, ![1, N]⟩ x hc) := by
  subst hd
  rw [addf_bcastRow _ x h1 h2 hc]
  show rowBias (FloatOps.dotGeneral (DotDims.plain M K N) none .single a w) _ = _
  rw [dotGeneral_plain]

end Cert.Mlp

end
-- ==== Proof.Rows.lean ====
/-
  Two row-wise maps of an array of extended reals.

  `unitRows z` divides every row of `z` by its Euclidean length, the length floored at a tiny positive constant:
  entry (r, q) is z (r, q) / max (sqrt (Σ_k z (r, k)²)) tiny.
  `softRows z` is the row softmax: with top r the maximum of row r (folded from -∞), entry (r, q) is
  exp (z (r, q) - top r) / Σ_k exp (z (r, k) - top r).
  An entry of either depends on its own row only, so a block of rows of the result is the result of that block of rows
  (`unitRows_rows`, `softRows_rows`).
-/
import Idealize.ShloMosaic.PureOps.Ideal
import Idealize.ShloMosaic.Lib.ValueIdx

noncomputable section

namespace Cert.Gcn

open Idealize.ShloMosaic Idealize.ShloMosaic.ValueIdx

/-- The floor of a row's length: the float literal `1e-12`, as its word reads. -/
abbrev tiny : EReal := Ideal.ofBits .f32 0x2B8CBCCC#32

/-- Minus infinity, as the word of the float literal reads. -/
abbrev bottom : EReal := Ideal.ofBits .f32 0xFF800000#32

/-- The sum of the squares of row `r`. -/
def rowSq {M N : ℕ} (z : (⟨2, ![M, N]⟩ : Shape).Idx → EReal) (r : Fin M) : EReal :=
  ∑ k : Fin N, z (ix2 r k) * z (ix2 r k)

/-- Every row divided by its length, the length floored at `tiny`. -/
def unitRows {M N : ℕ} (z : (⟨2, ![M, N]⟩ : Shape).Idx → EReal) : (⟨2, ![M, N]⟩ : Shape).Idx → EReal :=
  fun i => Ideal.div (z i) (max (Ideal.sqrt (rowSq z ⟨(i 0).val, idx2_lt0 i⟩)) tiny)

theorem unitRows_apply {M N : ℕ} (z : (⟨2, ![M, N]⟩ : Shape).Idx → EReal) (p : Fin M) (q : Fin N) :
    unitRows z (ix2 p q) = Ideal.div (z (ix2 p q)) (max (Ideal.sqrt (rowSq z p)) tiny) := rfl

/-- The maximum of row `r`, folded from minus infinity. -/
def rowTop {M N : ℕ} (z : (⟨2, ![M, N]⟩ : Shape).Idx → EReal) (r : Fin M) : EReal :=
  (Finset.univ : Finset (Fin N)).fold max bottom (fun k => z (ix2 r k))

/-- The exponential of an entry's distance below its row's maximum. -/
def expRows {M N : ℕ} (z : (⟨2, ![M, N]⟩ : Shape).Idx → EReal) : (⟨2, ![M, N]⟩ : Shape).Idx → EReal :=
  fun i => Ideal.exp (z i - rowTop z ⟨(i 0).val, idx2_lt0 i⟩)

theorem expRows_apply {M N : ℕ} (z : (⟨2, ![M, N]⟩ : Shape).Idx → EReal) (p : Fin M) (q : Fin N) :
    expRows z (ix2 p q) = Ideal.exp (z (ix2 p q) - rowTop z p) := rfl

/-- The sum over row `r` of those exponentials. -/
def rowExpSum {M N : ℕ} (z : (⟨2, ![M, N]⟩ : Shape).Idx → EReal) (r : Fin M) : EReal :=
  ∑ k : Fin N, expRows z (ix2 r k)

/-- The row softmax. -/
def softRows {M N : ℕ} (z : (⟨2, ![M, N]⟩ : Shape).Idx → EReal) : (⟨2, ![M, N]⟩ : Shape).Idx → EReal :=
  fun i => Ideal.div (expRows z i) (rowExpSum z ⟨(i 0).val, idx2_lt0 i⟩)

theorem softRows_apply {M N : ℕ} (z : (⟨2, ![M, N]⟩ : Shape).Idx → EReal) (p : Fin M) (q : Fin N) :
    softRows z (ix2 p q) = Ideal.div (Ideal.exp (z (ix2 p q) - rowTop z p)) (rowExpSum z p) := rfl

/-! ## A block of rows -/

section Rows

variable {M R N : ℕ} (o : ℕ) (z : (⟨2, ![M, N]⟩ : Shape).Idx → EReal) (zb : (⟨2, ![R, N]⟩ : Shape).Idx → EReal)
  (hz : ∀ (p : Fin R) (q : Fin N) (h : o + p.val < M), zb (ix2 p q) = z (ix2 (⟨o + p.val, h⟩ : Fin M) q))

include hz

theorem rowSq_rows (p : Fin R) (h : o + p.val < M) : rowSq zb p = rowSq z ⟨o + p.val, h⟩ := by
  unfold rowSq
  exact Finset.sum_congr rfl fun k _ => by rw [hz p k h]

theorem rowTop_rows (p : Fin R) (h : o + p.val < M) : rowTop zb p = rowTop z ⟨o + p.val, h⟩ := by
  unfold rowTop
  exact congrArg (fun f => Finset.fold max bottom f (Finset.univ : Finset (Fin N))) (funext fun k => hz p k h)

theorem expRows_rows (p : Fin R) (q : Fin N) (h : o + p.val < M) :
    expRows zb (ix2 p q) = expRows z (ix2 (⟨o + p.val, h⟩ : Fin M) q) := by
  rw [expRows_apply, expRows_apply, hz p q h, rowTop_rows o z zb hz p h]

theorem rowExpSum_rows (p : Fin R) (h : o + p.val < M) : rowExpSum zb p = rowExpSum z ⟨o + p.val, h⟩ := by
  unfold rowExpSum
  exact Finset.sum_congr rfl fun k _ => expRows_rows o z zb hz p k h

/-- Rows `o, …, o + R - 1` of `unitRows z` are `unitRows` of those rows of `z`. -/
theorem unitRows_rows (y : (⟨2, ![R, N]⟩ : Shape).Idx) (i : (⟨2, ![M, N]⟩ : Shape).Idx)
    (h0 : (i 0).val = o + (y 0).val) (h1 : (i 1).val = (y 1).val) : unitRows zb y = unitRows z i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have key : ∀ (p : Fin R) (q : Fin N) (h : o + p.val < M),
      unitRows zb (ix2 p q) = unitRows z (ix2 (⟨o + p.val, h⟩ : Fin M) q) := by
    intro p q h
    rw [unitRows_apply, unitRows_apply, hz p q h, rowSq_rows o z zb hz p h]
  exact (congrArg (unitRows zb) ey).trans ((key _ _ hM).trans (congrArg (unitRows z) ei.symm))

/-- The same for the row softmax. -/
theorem softRows_rows (y : (⟨2, ![R, N]⟩ : Shape).Idx) (i : (⟨2, ![M, N]⟩ : Shape).Idx)
    (h0 : (i 0).val = o + (y 0).val) (h1 : (i 1).val = (y 1).val) : softRows zb y = softRows z i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have key : ∀ (p : Fin R) (q : Fin N) (h : o + p.val < M),
      softRows zb (ix2 p q) = softRows z (ix2 (⟨o + p.val, h⟩ : Fin M) q) := by
    intro p q h
    rw [softRows_apply, softRows_apply, hz p q h, rowTop_rows o z zb hz p h, rowExpSum_rows o z zb hz p h]
  exact (congrArg (softRows zb) ey).trans ((key _ _ hM).trans (congrArg (softRows z) ei.symm))

end Rows

end Cert.Gcn

end
-- ==== Proof.Spec.lean ====
/-
  What both programs compute, as one function of the argument arrays, on the extended reals.

  The network has two graph layers and two heads. A graph layer multiplies the node features by a weight matrix and
  then, on the host, gathers the product's rows by source node, scales each gathered row by its edge's weight (the
  product of the two end nodes' inverse square-root degrees), adds the scaled rows up by target node, adds the bias
  and floors at zero. That host chain is the same list of operations in both programs, so it is carried here as one
  function of the matrix product it is applied to (`aggA` for the first layer, `aggB` for the second), spelt with the
  reference's own stages for everything that depends on the edge list and the bias only; it is never opened.

  A head is a two-layer perceptron on the rows of the second layer's output, followed by a row-wise map: division of
  each row by its floored Euclidean length (`outZ`), or the row softmax (`outC`).
-/
import proofs.«180019_j14834817040879_1_alg».proof.Proof.RefRead
import proofs.«180019_j14834817040879_1_alg».proof.Proof.LibTwoLayer
import proofs.«180019_j14834817040879_1_alg».proof.Proof.Rows

noncomputable section

namespace Cert.Gcn

open Idealize.ShloMosaic Cert.ReferenceIdeal Cert.ReferenceIdeal.Gen Cert.ReferenceIdeal.Read Cert.LibPlainDot

/-- The first graph layer's host chain, applied to its matrix product `xw`: gather the rows of `xw` by source node,
    scale by the edge weights, add up by target node, add the bias `x3`, floor at zero. -/
def aggA (x1 : (⟨S2x800000, .i32⟩ : BufTy).Contents (Elt Ideal)) (x3 : (⟨S256, .f32⟩ : BufTy).Contents (Elt Ideal))
    (xw : (⟨S50000x256, .f32⟩ : BufTy).Contents (Elt Ideal)) : (⟨S50000x256, .f32⟩ : BufTy).Contents (Elt Ideal) :=
  maximumf (F := Ideal) (φ := .f32) (addf (F := Ideal) (φ := .f32) (Host.scatterAdd (F := Ideal) scatter_S50000x256_S850000x1_S850000x256_1_0_0_1 (val_main_v41 (F := Ideal)) (val_main_v42 (F := Ideal) x1)
      (mulf (F := Ideal) (φ := .f32) (Host.gather gather_S50000x256_S850000x1_S850000x256_1_0_n_n_0_1_1256 xw (val_main_v36 (F := Ideal) x1)) (val_main_v39 (F := Ideal) x1)))
    (val_main_v45 (F := Ideal) x3)) (val_main_call1_v0 (F := Ideal))

/-- The second graph layer's host chain, applied to its matrix product `xw`. -/
def aggB (x1 : (⟨S2x800000, .i32⟩ : BufTy).Contents (Elt Ideal)) (x5 : (⟨S128, .f32⟩ : BufTy).Contents (Elt Ideal))
    (xw : (⟨S50000x128, .f32⟩ : BufTy).Contents (Elt Ideal)) : (⟨S50000x128, .f32⟩ : BufTy).Contents (Elt Ideal) :=
  maximumf (F := Ideal) (φ := .f32) (addf (F := Ideal) (φ := .f32) (Host.scatterAdd (F := Ideal) scatter_S50000x128_S850000x1_S850000x128_1_0_0_1 (val_main_v74 (F := Ideal)) (val_main_v75 (F := Ideal) x1)
      (mulf (F := Ideal) (φ := .f32) (Host.gather gather_S50000x128_S850000x1_S850000x128_1_0_n_n_0_1_1128 xw (val_main_v69 (F := Ideal) x1)) (val_main_v72 (F := Ideal) x1)))
    (val_main_v78 (F := Ideal) x5)) (val_main_call2_v0 (F := Ideal))

theorem cast512 : (⟨1, ![512]⟩ : Shape).ShapeCasts ⟨2, ![1, 512]⟩ := by decide
theorem cast128 : (⟨1, ![128]⟩ : Shape).ShapeCasts ⟨2, ![1, 128]⟩ := by decide
theorem cast10 : (⟨1, ![10]⟩ : Shape).ShapeCasts ⟨2, ![1, 10]⟩ := by decide

/-- The node features after both graph layers. -/
def hid2 (x0 : (⟨S50000x500, .f32⟩ : BufTy).Contents (Elt Ideal)) (x1 : (⟨S2x800000, .i32⟩ : BufTy).Contents (Elt Ideal))
    (x2 : (⟨S500x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    (⟨2, ![50000, 128]⟩ : Shape).Idx → EReal :=
  aggB x1 x5 (rowsTimes (M := 50000) (K := 256) (N := 128) (aggA x1 x3 (rowsTimes (M := 50000) (K := 500) (N := 256) x0 x2)) x4)

/-- The first result: the projection head's output, every row divided by its floored length. -/
def outZ (x0 : (⟨S50000x500, .f32⟩ : BufTy).Contents (Elt Ideal)) (x1 : (⟨S2x800000, .i32⟩ : BufTy).Contents (Elt Ideal))
    (x2 : (⟨S500x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S128x512, .f32⟩ : BufTy).Contents (Elt Ideal)) (x7 : (⟨S512, .f32⟩ : BufTy).Contents (Elt Ideal))
    (x8 : (⟨S512x128, .f32⟩ : BufTy).Contents (Elt Ideal)) (x9 : (⟨S128, .f32⟩ : BufTy).Contents (Elt Ideal)) :
    (⟨2, ![50000, 128]⟩ : Shape).Idx → EReal :=
  unitRows (Cert.Mlp.outPlain (M := 50000) (K := 128) (N := 512) (P := 128) (hid2 x0 x1 x2 x3 x4 x5) x6
    (shapeCast ⟨2, ![1, 512]⟩ x7 cast512) x8 (shapeCast ⟨2, ![1, 128]⟩ x9 cast128))

/-- The second result: the classifier head's output, row softmax. -/
def outC (x0 : (⟨S50000x500, .f32⟩ : BufTy).Contents (Elt Ideal)) (x1 : (⟨S2x800000, .i32⟩ : BufTy).Contents (Elt Ideal))
    (x2 : (⟨S500x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x10 : (⟨S128x512, .f32⟩ : BufTy).Contents (Elt Ideal)) (x11 : (⟨S512, .f32⟩ : BufTy).Contents (Elt Ideal))
    (x12 : (⟨S512x10, .f32⟩ : BufTy).Contents (Elt Ideal)) (x13 : (⟨S10, .f32⟩ : BufTy).Contents (Elt Ideal)) :
    (⟨2, ![50000, 10]⟩ : Shape).Idx → EReal :=
  softRows (Cert.Mlp.outPlain (M := 50000) (K := 128) (N := 512) (P := 10) (hid2 x0 x1 x2 x3 x4 x5) x10
    (shapeCast ⟨2, ![1, 512]⟩ x11 cast512) x12 (shapeCast ⟨2, ![1, 10]⟩ x13 cast10))

end Cert.Gcn

end
-- ==== Proof.MatRegions.lean ====
/-
  The two matrix-product regions, read as whole arrays.

  Each region runs over 25 points. At point `t` its body multiplies rows `2000 t … 2000 t + 1999` of the left array
  (a `[2000, K]` block) by the whole right array `[K, N]`, accumulating into zero, and the `[2000, N]` result is
  written back as rows `2000 t … 2000 t + 1999` of the output array. On the extended reals that block product is
  `rowsTimes` of the two blocks; an entry of a product depends only on its own row of the left operand, so the block
  is the same rows of `rowsTimes` of the whole arrays; and every row `r < 50000` lies in the block of point
  `r / 2000`. Hence the output array after the region is `rowsTimes` of the two arrays the region was entered with.
-/
import proofs.«180019_j14834817040879_1_alg».proof.Proof.Gen.KernelIdeal.Frame
import proofs.«180019_j14834817040879_1_alg».proof.Proof.LibPlainDot
import Idealize.ShloMosaic.Lib.Pipeline.Value

noncomputable section

namespace Cert.KernelIdeal.MatRegion

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot (rowsTimes)

variable (V : (c : Dev nD) → (b : Ref sig .tc) → Buf (Elt Ideal) ((c : Thread nD τ).loc b))

/-- The zero offsets of a whole-block access, as a constant function. -/
theorem zeros2 : (![0, 0] : Fin 2 → Nat) = fun _ => 0 := funext fun a => by fin_cases a <;> rfl

/-! ## The first product: `[50000, 500]` by `[500, 256]` -/

/-- The body's dimension numbers are the plain ones: contract the left operand's columns with the right operand's rows. -/
theorem dims0 : dot_S2000x500_S500x256_S2000x256_1_0_0_1_n_n = DotDims.plain 2000 500 256 := rfl

/-- The body's result, from the two blocks it loads: their product, entry `(p, q)` the sum over `k` of
    `x0 (p, k) * x1 (k, q)` (the casts are to the operands' own shapes, the accumulator is zero). -/
theorem pay0 (x0 : Vec Ideal S2000x500 .bf16) (x1 : Vec Ideal S500x256 .bf16) :
    (k0_pay1 x0 x1 : S2000x256.Idx → EReal) = rowsTimes (M := 2000) (K := 500) (N := 256) x0 x1 := by
  unfold k0_pay1
  rw [shapeCast_self, shapeCast_self, dims0]
  exact Cert.LibPlainDot.matmul_zero_plain none x0 x1

/-- The block indices at point `t`: the left and output windows are at block row `t`, block column 0; the right
    window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `2000 t, …` of the left array: entry `(y, k)` of the block is entry
    `(2000 t + y, k)` of the array. -/
theorem left0 (c : Dev nD) (t : Fin cfg0.N) (y : Fin 2000) (k : Fin 500) (h : 2000 * t.val + y.val < 50000) :
    (iblk0 V c 0 t : S2000x500.Idx → EReal) (ix2 y k)
      = (V c main_v15 : S50000x500.Idx → EReal) (ix2 (⟨2000 * t.val + y.val, h⟩ : Fin 50000) k) := by
  obtain ⟨e0, e1, -⟩ := idx0 t
  unfold iblk0
  rw [View.read_apply]
  show V c main_v15 _ = V c main_v15 _
  refine congrArg _ (funext fun a => Fin.ext ?_)
  match a with
  | ⟨0, _⟩ => show win0_0.index t (0 : Fin 2) * 2000 + 1 * y.val = 2000 * t.val + y.val; rw [e0]; omega
  | ⟨1, _⟩ => show win0_0.index t (1 : Fin 2) * 500 + 1 * k.val = k.val; rw [e1]; omega

/-- The right window's block at every point is the whole right array. -/
theorem right0 (c : Dev nD) (t : Fin cfg0.N) :
    (iblk0 V c 1 t : S500x256.Idx → EReal) = (V c main_v16 : S500x256.Idx → EReal) := by
  obtain ⟨-, -, e0, e1, -⟩ := idx0 t
  funext y
  unfold iblk0
  rw [View.read_apply]
  show V c main_v16 _ = V c main_v16 _
  refine congrArg _ (funext fun a => Fin.ext ?_)
  match a with
  | ⟨0, _⟩ => show win0_1.index t (0 : Fin 2) * 500 + 1 * (y 0).val = (y 0).val; rw [e0]; omega
  | ⟨1, _⟩ => show win0_1.index t (1 : Fin 2) * 256 + 1 * (y 1).val = (y 1).val; rw [e1]; omega

/-- What point `t` writes back is block `t` of the product of the whole arrays: the body's one store fills the block
    with the product of the two loaded blocks, and rows `2000 t, …` of the left array times the right array are
    rows `2000 t, …` of the whole product. -/
theorem flushed0 (c : Dev nD) (t : Fin cfg0.N) :
    (dat0 (F := Ideal) V c).flushed 2 t
      = ((cfg0.win 2).blk t).view.read (Elt Ideal)
          (rowsTimes (M := 50000) (K := 500) (N := 256) (V c main_v15) (V c main_v16)) := by
  show (cfg0.win 2).cut (grid0.coords t) ((dat0 (F := Ideal) V c).after 2 t) = _
  rw [after0_2]
  unfold out0_2
  rw [View.canon_unit_zero zeros2]
  simp only [View.ld_unit_zero (S := S2000x500) zeros2, View.ld_unit_zero (S := S500x256) zeros2]
  obtain ⟨-, -, -, -, e0, e1⟩ := idx0 t
  funext y
  rw [View.read_apply]
  refine (congrFun (pay0 (iblk0 V c 0 t) (iblk0 V c 1 t)) y).trans ?_
  rw [right0 V c t]
  refine Cert.LibPlainDot.rowsTimes_rows (M := 50000) (R := 2000) (K := 500) (N := 256) (2000 * t.val)
    (V c main_v15) (iblk0 V c 0 t) (V c main_v16) (fun p k h => left0 V c t p k h) y _ ?_ ?_
  · show win0_2.index t (0 : Fin 2) * 2000 + 1 * (y 0).val = 2000 * t.val + (y 0).val; rw [e0]; omega
  · show win0_2.index t (1 : Fin 2) * 256 + 1 * (y 1).val = (y 1).val; rw [e1]; omega

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v17).slice (win0_2.rect t)).set ↔ _
  rw [View.set_slice_whole, Rect.mem_set_unit]
  exact Iff.rfl

/-- Row `r` of the output array lies in the block of point `r / 2000`, and every point writes its block back. -/
theorem cover0 (i : S50000x256.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  have htv : t.val = (i 0).val / 2000 := rfl
  obtain ⟨-, -, -, -, e0, e1⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e0, htv]; omega
  | ⟨1, _⟩ =>
    show win0_2.index t (1 : Fin 2) * 256 ≤ (i 1).val ∧ (i 1).val < win0_2.index t (1 : Fin 2) * 256 + 256
    rw [e1]; omega

/-- The output array after the region is the product of the two arrays the region was entered with. -/
theorem arr0 (c : Dev nD) :
    ((dat0 (F := Ideal) V c).arrAt 2 cfg0.N : S50000x256.Idx → EReal)
      = Cert.LibPlainDot.rowsTimes (M := 50000) (K := 500) (N := 256) (V c main_v15) (V c main_v16) :=
  (dat0 (F := Ideal) V c).arrAt_eq_of_cover 2 _ (fun t _ => flushed0 V c t) cover0

/-! ## The second product: `[50000, 256]` by `[256, 128]` -/

/-- The body's dimension numbers are the plain ones: contract the left operand's columns with the right operand's rows. -/
theorem dims1 : dot_S2000x256_S256x128_S2000x128_1_0_0_1_n_n = DotDims.plain 2000 256 128 := rfl

/-- The body's result, from the two blocks it loads: their product, entry `(p, q)` the sum over `k` of
    `x0 (p, k) * x1 (k, q)` (the casts are to the operands' own shapes, the accumulator is zero). -/
theorem pay1 (x0 : Vec Ideal S2000x256 .bf16) (x1 : Vec Ideal S256x128 .bf16) :
    (k1_pay1 x0 x1 : S2000x128.Idx → EReal) = rowsTimes (M := 2000) (K := 256) (N := 128) x0 x1 := by
  unfold k1_pay1
  rw [shapeCast_self, shapeCast_self, dims1]
  exact Cert.LibPlainDot.matmul_zero_plain none x0 x1

/-- The block indices at point `t`: the left and output windows are at block row `t`, block column 0; the right
    window stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `2000 t, …` of the left array: entry `(y, k)` of the block is entry
    `(2000 t + y, k)` of the array. -/
theorem left1 (c : Dev nD) (t : Fin cfg1.N) (y : Fin 2000) (k : Fin 256) (h : 2000 * t.val + y.val < 50000) :
    (iblk1 V c 0 t : S2000x256.Idx → EReal) (ix2 y k)
      = (V c main_v50 : S50000x256.Idx → EReal) (ix2 (⟨2000 * t.val + y.val, h⟩ : Fin 50000) k) := by
  obtain ⟨e0, e1, -⟩ := idx1 t
  unfold iblk1
  rw [View.read_apply]
  show V c main_v50 _ = V c main_v50 _
  refine congrArg _ (funext fun a => Fin.ext ?_)
  match a with
  | ⟨0, _⟩ => show win1_0.index t (0 : Fin 2) * 2000 + 1 * y.val = 2000 * t.val + y.val; rw [e0]; omega
  | ⟨1, _⟩ => show win1_0.index t (1 : Fin 2) * 256 + 1 * k.val = k.val; rw [e1]; omega

/-- The right window's block at every point is the whole right array. -/
theorem right1 (c : Dev nD) (t : Fin cfg1.N) :
    (iblk1 V c 1 t : S256x128.Idx → EReal) = (V c main_v51 : S256x128.Idx → EReal) := by
  obtain ⟨-, -, e0, e1, -⟩ := idx1 t
  funext y
  unfold iblk1
  rw [View.read_apply]
  show V c main_v51 _ = V c main_v51 _
  refine congrArg _ (funext fun a => Fin.ext ?_)
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

/-- What point `t` writes back is block `t` of the product of the whole arrays: the body's one store fills the block
    with the product of the two loaded blocks, and rows `2000 t, …` of the left array times the right array are
    rows `2000 t, …` of the whole product. -/
theorem flushed1 (c : Dev nD) (t : Fin cfg1.N) :
    (dat1 (F := Ideal) V c).flushed 2 t
      = ((cfg1.win 2).blk t).view.read (Elt Ideal)
          (rowsTimes (M := 50000) (K := 256) (N := 128) (V c main_v50) (V c main_v51)) := by
  show (cfg1.win 2).cut (grid1.coords t) ((dat1 (F := Ideal) V c).after 2 t) = _
  rw [after1_2]
  unfold out1_2
  rw [View.canon_unit_zero zeros2]
  simp only [View.ld_unit_zero (S := S2000x256) zeros2, View.ld_unit_zero (S := S256x128) zeros2]
  obtain ⟨-, -, -, -, e0, e1⟩ := idx1 t
  funext y
  rw [View.read_apply]
  refine (congrFun (pay1 (iblk1 V c 0 t) (iblk1 V c 1 t)) y).trans ?_
  rw [right1 V c t]
  refine Cert.LibPlainDot.rowsTimes_rows (M := 50000) (R := 2000) (K := 256) (N := 128) (2000 * t.val)
    (V c main_v50) (iblk1 V c 0 t) (V c main_v51) (fun p k h => left1 V c t p k h) y _ ?_ ?_
  · show win1_2.index t (0 : Fin 2) * 2000 + 1 * (y 0).val = 2000 * t.val + (y 0).val; rw [e0]; omega
  · show win1_2.index t (1 : Fin 2) * 128 + 1 * (y 1).val = (y 1).val; rw [e1]; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v52).slice (win1_2.rect t)).set ↔ _
  rw [View.set_slice_whole, Rect.mem_set_unit]
  exact Iff.rfl

/-- Row `r` of the output array lies in the block of point `r / 2000`, and every point writes its block back. -/
theorem cover1 (i : S50000x128.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  have htv : t.val = (i 0).val / 2000 := rfl
  obtain ⟨-, -, -, -, e0, e1⟩ := idx1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e0, htv]; omega
  | ⟨1, _⟩ =>
    show win1_2.index t (1 : Fin 2) * 128 ≤ (i 1).val ∧ (i 1).val < win1_2.index t (1 : Fin 2) * 128 + 128
    rw [e1]; omega

/-- The output array after the region is the product of the two arrays the region was entered with. -/
theorem arr1 (c : Dev nD) :
    ((dat1 (F := Ideal) V c).arrAt 2 cfg1.N : S50000x128.Idx → EReal)
      = Cert.LibPlainDot.rowsTimes (M := 50000) (K := 256) (N := 128) (V c main_v50) (V c main_v51) :=
  (dat1 (F := Ideal) V c).arrAt_eq_of_cover 2 _ (fun t _ => flushed1 V c t) cover1

end Cert.KernelIdeal.MatRegion

end
-- ==== Proof.KChain1.lean ====
/-
  The idealized kernel program's boundary contents up to its second region, read back.

  The host stretch before the first region computes, from the edge list alone, every edge's source and target node
  (self loops appended) and every node's inverse square-root degree; the reference computes the same three arrays by
  the same operations, so each is stated as the reference's own stage of the edge list. The first region leaves the
  product of the features and the first weights; the host then applies the first graph layer's chain to it; the second
  region multiplies the result by the second weights. Narrowing to bf16 changes nothing on the extended reals, so it
  disappears from every statement. No segment writes an argument array, nor, after the first stretch, the three
  edge-list arrays: later boundaries hold them as the first one did.
-/
import proofs.«180019_j14834817040879_1_alg».proof.Proof.Gen.KernelIdeal.Frame
import proofs.«180019_j14834817040879_1_alg».proof.Proof.Spec
import proofs.«180019_j14834817040879_1_alg».proof.Proof.MatRegions
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.LibPlainDot Cert.Gcn

variable (m : (ℓ : Loc nD τ sig) → Buf (Elt Ideal) ℓ) (ρ : Dev nD → PrngReg) (c : Dev nD)

/-- Joining two arrays along an axis respects equality of the two parts. -/
theorem concat2_congr {α : Type} {t : Shape} {a : Fin t.rank} {s1 s2 : Shape} {x x' : s1.Idx → α} {y y' : s2.Idx → α}
    (h : Shape.Concatenates (([⟨s1, x⟩, ⟨s2, y⟩] : List ((s : Shape) × (s.Idx → α))).map (·.1)) t a)
    (h' : Shape.Concatenates (([⟨s1, x'⟩, ⟨s2, y'⟩] : List ((s : Shape) × (s.Idx → α))).map (·.1)) t a)
    (hx : x = x') (hy : y = y') :
    concatenate t a [⟨s1, x⟩, ⟨s2, y⟩] h = concatenate t a [⟨s1, x'⟩, ⟨s2, y'⟩] h' := by
  subst hx hy; rfl

/-! ## Before the first region -/

/-- Every edge's source node. -/
theorem W1_v3 : W1 m ρ c (Proc.devRef .tc main_v3)
    = Cert.ReferenceIdeal.Read.val_main_v3 (F := Ideal) (m ((c : Thread nD τ).loc main_arg1)) := by
  dsimp only [W1]
  after_results_simp
  unfold Cert.ReferenceIdeal.Read.val_main_v3
  exact concat2_congr _ _ (by after_results_simp <;> rfl) (by after_results_simp <;> rfl)

/-- Every edge's target node. -/
theorem W1_v6 : W1 m ρ c (Proc.devRef .tc main_v6)
    = Cert.ReferenceIdeal.Read.val_main_v6 (F := Ideal) (m ((c : Thread nD τ).loc main_arg1)) := by
  dsimp only [W1]
  after_results_simp
  unfold Cert.ReferenceIdeal.Read.val_main_v6
  exact concat2_congr _ _ (by after_results_simp <;> rfl) (by after_results_simp <;> rfl)

/-- Every node's degree: the number of edges (self loop included) that end at it. -/
theorem W1_v10 : W1 m ρ c (Proc.devRef .tc main_v10)
    = Cert.ReferenceIdeal.Read.val_main_v10 (F := Ideal) (m ((c : Thread nD τ).loc main_arg1)) := by
  have e6 := W1_v6 m ρ c
  dsimp only [W1] at e6 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at e6 ⊢
  rw [e6]
  rfl

/-- Where the degree is positive. -/
theorem W1_v12 : W1 m ρ c (Proc.devRef .tc main_v12)
    = Cert.ReferenceIdeal.Read.val_main_v12 (F := Ideal) (m ((c : Thread nD τ).loc main_arg1)) := by
  have e10 := W1_v10 m ρ c
  dsimp only [W1] at e10 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at e10 ⊢
  rw [e10]
  rfl

/-- The degree's inverse square root. -/
theorem W1_v13 : W1 m ρ c (Proc.devRef .tc main_v13)
    = Cert.ReferenceIdeal.Read.val_main_v13 (F := Ideal) (m ((c : Thread nD τ).loc main_arg1)) := by
  have e10 := W1_v10 m ρ c
  dsimp only [W1] at e10 ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at e10 ⊢
  rw [e10]
  rfl

theorem W1_cst2 : W1 m ρ c (Proc.devRef .tc main_cst_2) = constant (F := Ideal) S_ .f32 0x00000000#32 := by
  dsimp only [W1]
  after_results_simp <;> rfl

/-- The outlined selection, from any contents: where the flag holds the second operand, elsewhere the broadcast scalar. -/
theorem where_result (X : Valuation τ sig (Elt Ideal)) :
    after hostOps0_1 X (Proc.devRef .tc main_v14)
      = select (X (Proc.devRef .tc main_v12)) (X (Proc.devRef .tc main_v13))
          (broadcastInDim S50000 ![] bcast_S_S50000 (X (Proc.devRef .tc main_cst_2))) := by
  after_results_simp <;> rfl

/-- The two narrowing operations before the first region write only their own results. -/
theorem narrow0_v14 (X : Valuation τ sig (Elt Ideal)) : after hostOps0_2 X (Proc.devRef .tc main_v14) = X (Proc.devRef .tc main_v14) := by
  after_results_simp
theorem narrow0_v15 (X : Valuation τ sig (Elt Ideal)) : (after hostOps0_2 X (Proc.devRef .tc main_v15) : S50000x500.Idx → EReal) = X (Proc.devRef .tc main_arg0) := by
  after_results_simp <;> rfl
theorem narrow0_v16 (X : Valuation τ sig (Elt Ideal)) : (after hostOps0_2 X (Proc.devRef .tc main_v16) : S500x256.Idx → EReal) = X (Proc.devRef .tc main_arg2) := by
  after_results_simp <;> rfl

/-- Every node's inverse square-root degree (zero where the degree is not positive). -/
theorem W3_v14 : W3 m ρ c (Proc.devRef .tc main_v14)
    = Cert.ReferenceIdeal.Read.val_main_v14 (F := Ideal) (m ((c : Thread nD τ).loc main_arg1)) := by
  refine (narrow0_v14 (W2 m ρ c)).trans ((where_result (W1 m ρ c)).trans ?_)
  rw [W1_v12, W1_v13, W1_cst2]
  rfl

/-- The edge list's two node arrays are still there at the first region's entry. -/
theorem W3_v3 : W3 m ρ c (Proc.devRef .tc main_v3) = Cert.ReferenceIdeal.Read.val_main_v3 (F := Ideal) (m ((c : Thread nD τ).loc main_arg1)) :=
  (show W3 m ρ c (Proc.devRef .tc main_v3) = W1 m ρ c (Proc.devRef .tc main_v3) by
    dsimp only [W3, W2]
    after_results_simp).trans (W1_v3 m ρ c)
theorem W3_v6 : W3 m ρ c (Proc.devRef .tc main_v6) = Cert.ReferenceIdeal.Read.val_main_v6 (F := Ideal) (m ((c : Thread nD τ).loc main_arg1)) :=
  (show W3 m ρ c (Proc.devRef .tc main_v6) = W1 m ρ c (Proc.devRef .tc main_v6) by
    dsimp only [W3, W2]
    after_results_simp).trans (W1_v6 m ρ c)

/-- No operation before the first region writes an argument. -/
theorem W3_arg0 : W3 m ρ c (Proc.devRef .tc main_arg0) = (m ((c : Thread nD τ).loc main_arg0)) := by
  dsimp only [W3, W2, W1]
  after_results_simp <;> rfl
theorem W3_arg2 : W3 m ρ c (Proc.devRef .tc main_arg2) = (m ((c : Thread nD τ).loc main_arg2)) := by
  dsimp only [W3, W2, W1]
  after_results_simp <;> rfl
theorem W3_arg3 : W3 m ρ c (Proc.devRef .tc main_arg3) = (m ((c : Thread nD τ).loc main_arg3)) := by
  dsimp only [W3, W2, W1]
  after_results_simp <;> rfl
theorem W3_arg4 : W3 m ρ c (Proc.devRef .tc main_arg4) = (m ((c : Thread nD τ).loc main_arg4)) := by
  dsimp only [W3, W2, W1]
  after_results_simp <;> rfl
theorem W3_arg5 : W3 m ρ c (Proc.devRef .tc main_arg5) = (m ((c : Thread nD τ).loc main_arg5)) := by
  dsimp only [W3, W2, W1]
  after_results_simp <;> rfl
theorem W3_arg6 : W3 m ρ c (Proc.devRef .tc main_arg6) = (m ((c : Thread nD τ).loc main_arg6)) := by
  dsimp only [W3, W2, W1]
  after_results_simp <;> rfl
theorem W3_arg7 : W3 m ρ c (Proc.devRef .tc main_arg7) = (m ((c : Thread nD τ).loc main_arg7)) := by
  dsimp only [W3, W2, W1]
  after_results_simp <;> rfl
theorem W3_arg8 : W3 m ρ c (Proc.devRef .tc main_arg8) = (m ((c : Thread nD τ).loc main_arg8)) := by
  dsimp only [W3, W2, W1]
  after_results_simp <;> rfl
theorem W3_arg9 : W3 m ρ c (Proc.devRef .tc main_arg9) = (m ((c : Thread nD τ).loc main_arg9)) := by
  dsimp only [W3, W2, W1]
  after_results_simp <;> rfl
theorem W3_arg10 : W3 m ρ c (Proc.devRef .tc main_arg10) = (m ((c : Thread nD τ).loc main_arg10)) := by
  dsimp only [W3, W2, W1]
  after_results_simp <;> rfl
theorem W3_arg11 : W3 m ρ c (Proc.devRef .tc main_arg11) = (m ((c : Thread nD τ).loc main_arg11)) := by
  dsimp only [W3, W2, W1]
  after_results_simp <;> rfl
theorem W3_arg12 : W3 m ρ c (Proc.devRef .tc main_arg12) = (m ((c : Thread nD τ).loc main_arg12)) := by
  dsimp only [W3, W2, W1]
  after_results_simp <;> rfl
theorem W3_arg13 : W3 m ρ c (Proc.devRef .tc main_arg13) = (m ((c : Thread nD τ).loc main_arg13)) := by
  dsimp only [W3, W2, W1]
  after_results_simp <;> rfl

/-- The first product's operands are the features and the first weights. -/
theorem W3_v15 : (W3 m ρ c (Proc.devRef .tc main_v15) : S50000x500.Idx → EReal) = (m ((c : Thread nD τ).loc main_arg0)) :=
  (narrow0_v15 (W2 m ρ c)).trans ((show W2 m ρ c (Proc.devRef .tc main_arg0) = W3 m ρ c (Proc.devRef .tc main_arg0) by
    dsimp only [W3]
    after_results_simp).trans (W3_arg0 m ρ c))
theorem W3_v16 : (W3 m ρ c (Proc.devRef .tc main_v16) : S500x256.Idx → EReal) = (m ((c : Thread nD τ).loc main_arg2)) :=
  (narrow0_v16 (W2 m ρ c)).trans ((show W2 m ρ c (Proc.devRef .tc main_arg2) = W3 m ρ c (Proc.devRef .tc main_arg2) by
    dsimp only [W3]
    after_results_simp).trans (W3_arg2 m ρ c))

/-! ## What the later segments keep -/

theorem W8_main_v3 : W8 m ρ c (Proc.devRef .tc main_v3) = W3 m ρ c (Proc.devRef .tc main_v3) :=
  (W8_of_ne m ρ c main_v3 (by decide)).trans ((show W7 m ρ c (Proc.devRef .tc main_v3) = W4 m ρ c (Proc.devRef .tc main_v3) by
    dsimp only [W7, W6, W5]
    after_results_simp).trans (W4_of_ne m ρ c main_v3 (by decide)))
theorem W8_main_v6 : W8 m ρ c (Proc.devRef .tc main_v6) = W3 m ρ c (Proc.devRef .tc main_v6) :=
  (W8_of_ne m ρ c main_v6 (by decide)).trans ((show W7 m ρ c (Proc.devRef .tc main_v6) = W4 m ρ c (Proc.devRef .tc main_v6) by
    dsimp only [W7, W6, W5]
    after_results_simp).trans (W4_of_ne m ρ c main_v6 (by decide)))
theorem W8_main_v14 : W8 m ρ c (Proc.devRef .tc main_v14) = W3 m ρ c (Proc.devRef .tc main_v14) :=
  (W8_of_ne m ρ c main_v14 (by decide)).trans ((show W7 m ρ c (Proc.devRef .tc main_v14) = W4 m ρ c (Proc.devRef .tc main_v14) by
    dsimp only [W7, W6, W5]
    after_results_simp).trans (W4_of_ne m ρ c main_v14 (by decide)))
theorem W8_main_arg5 : W8 m ρ c (Proc.devRef .tc main_arg5) = W3 m ρ c (Proc.devRef .tc main_arg5) :=
  (W8_of_ne m ρ c main_arg5 (by decide)).trans ((show W7 m ρ c (Proc.devRef .tc main_arg5) = W4 m ρ c (Proc.devRef .tc main_arg5) by
    dsimp only [W7, W6, W5]
    after_results_simp).trans (W4_of_ne m ρ c main_arg5 (by decide)))
theorem W8_main_arg6 : W8 m ρ c (Proc.devRef .tc main_arg6) = W3 m ρ c (Proc.devRef .tc main_arg6) :=
  (W8_of_ne m ρ c main_arg6 (by decide)).trans ((show W7 m ρ c (Proc.devRef .tc main_arg6) = W4 m ρ c (Proc.devRef .tc main_arg6) by
    dsimp only [W7, W6, W5]
    after_results_simp).trans (W4_of_ne m ρ c main_arg6 (by decide)))
theorem W8_main_arg7 : W8 m ρ c (Proc.devRef .tc main_arg7) = W3 m ρ c (Proc.devRef .tc main_arg7) :=
  (W8_of_ne m ρ c main_arg7 (by decide)).trans ((show W7 m ρ c (Proc.devRef .tc main_arg7) = W4 m ρ c (Proc.devRef .tc main_arg7) by
    dsimp only [W7, W6, W5]
    after_results_simp).trans (W4_of_ne m ρ c main_arg7 (by decide)))
theorem W8_main_arg8 : W8 m ρ c (Proc.devRef .tc main_arg8) = W3 m ρ c (Proc.devRef .tc main_arg8) :=
  (W8_of_ne m ρ c main_arg8 (by decide)).trans ((show W7 m ρ c (Proc.devRef .tc main_arg8) = W4 m ρ c (Proc.devRef .tc main_arg8) by
    dsimp only [W7, W6, W5]
    after_results_simp).trans (W4_of_ne m ρ c main_arg8 (by decide)))
theorem W8_main_arg9 : W8 m ρ c (Proc.devRef .tc main_arg9) = W3 m ρ c (Proc.devRef .tc main_arg9) :=
  (W8_of_ne m ρ c main_arg9 (by decide)).trans ((show W7 m ρ c (Proc.devRef .tc main_arg9) = W4 m ρ c (Proc.devRef .tc main_arg9) by
    dsimp only [W7, W6, W5]
    after_results_simp).trans (W4_of_ne m ρ c main_arg9 (by decide)))
theorem W8_main_arg10 : W8 m ρ c (Proc.devRef .tc main_arg10) = W3 m ρ c (Proc.devRef .tc main_arg10) :=
  (W8_of_ne m ρ c main_arg10 (by decide)).trans ((show W7 m ρ c (Proc.devRef .tc main_arg10) = W4 m ρ c (Proc.devRef .tc main_arg10) by
    dsimp only [W7, W6, W5]
    after_results_simp).trans (W4_of_ne m ρ c main_arg10 (by decide)))
theorem W8_main_arg11 : W8 m ρ c (Proc.devRef .tc main_arg11) = W3 m ρ c (Proc.devRef .tc main_arg11) :=
  (W8_of_ne m ρ c main_arg11 (by decide)).trans ((show W7 m ρ c (Proc.devRef .tc main_arg11) = W4 m ρ c (Proc.devRef .tc main_arg11) by
    dsimp only [W7, W6, W5]
    after_results_simp).trans (W4_of_ne m ρ c main_arg11 (by decide)))
theorem W8_main_arg12 : W8 m ρ c (Proc.devRef .tc main_arg12) = W3 m ρ c (Proc.devRef .tc main_arg12) :=
  (W8_of_ne m ρ c main_arg12 (by decide)).trans ((show W7 m ρ c (Proc.devRef .tc main_arg12) = W4 m ρ c (Proc.devRef .tc main_arg12) by
    dsimp only [W7, W6, W5]
    after_results_simp).trans (W4_of_ne m ρ c main_arg12 (by decide)))
theorem W8_main_arg13 : W8 m ρ c (Proc.devRef .tc main_arg13) = W3 m ρ c (Proc.devRef .tc main_arg13) :=
  (W8_of_ne m ρ c main_arg13 (by decide)).trans ((show W7 m ρ c (Proc.devRef .tc main_arg13) = W4 m ρ c (Proc.devRef .tc main_arg13) by
    dsimp only [W7, W6, W5]
    after_results_simp).trans (W4_of_ne m ρ c main_arg13 (by decide)))

theorem W12_main_arg10 : W12 m ρ c (Proc.devRef .tc main_arg10) = W3 m ρ c (Proc.devRef .tc main_arg10) :=
  (W12_of_ne m ρ c main_arg10 (by decide)).trans ((show W11 m ρ c (Proc.devRef .tc main_arg10) = W8 m ρ c (Proc.devRef .tc main_arg10) by
    dsimp only [W11, W10, W9]
    after_results_simp).trans (W8_main_arg10 m ρ c))
theorem W12_main_arg11 : W12 m ρ c (Proc.devRef .tc main_arg11) = W3 m ρ c (Proc.devRef .tc main_arg11) :=
  (W12_of_ne m ρ c main_arg11 (by decide)).trans ((show W11 m ρ c (Proc.devRef .tc main_arg11) = W8 m ρ c (Proc.devRef .tc main_arg11) by
    dsimp only [W11, W10, W9]
    after_results_simp).trans (W8_main_arg11 m ρ c))
theorem W12_main_arg12 : W12 m ρ c (Proc.devRef .tc main_arg12) = W3 m ρ c (Proc.devRef .tc main_arg12) :=
  (W12_of_ne m ρ c main_arg12 (by decide)).trans ((show W11 m ρ c (Proc.devRef .tc main_arg12) = W8 m ρ c (Proc.devRef .tc main_arg12) by
    dsimp only [W11, W10, W9]
    after_results_simp).trans (W8_main_arg12 m ρ c))
theorem W12_main_arg13 : W12 m ρ c (Proc.devRef .tc main_arg13) = W3 m ρ c (Proc.devRef .tc main_arg13) :=
  (W12_of_ne m ρ c main_arg13 (by decide)).trans ((show W11 m ρ c (Proc.devRef .tc main_arg13) = W8 m ρ c (Proc.devRef .tc main_arg13) by
    dsimp only [W11, W10, W9]
    after_results_simp).trans (W8_main_arg13 m ρ c))

/-! ## The first graph layer -/

/-- The first region leaves the product of the features and the first weights. -/
theorem W4_v17 : (W4 m ρ c (Proc.devRef .tc main_v17) : S50000x256.Idx → EReal)
    = rowsTimes (M := 50000) (K := 500) (N := 256) (m ((c : Thread nD τ).loc main_arg0)) (m ((c : Thread nD τ).loc main_arg2)) :=
  (W4_arr m ρ c 2).trans ((Cert.KernelIdeal.MatRegion.arr0 (V3 m ρ) c).trans
    (congrArg₂ (rowsTimes (M := 50000) (K := 500) (N := 256)) (W3_v15 m ρ c) (W3_v16 m ρ c)))

/-- The outlined floor at zero, from any contents. -/
theorem relu1_result (X : Valuation τ sig (Elt Ideal)) :
    after hostOps1_1 X (Proc.devRef .tc main_v49)
      = maximumf (F := Ideal) (φ := .f32) (X (Proc.devRef .tc main_v48))
          (broadcastInDim S50000x256 ![] bcast_S_S50000x256 (constant S_ .f32 0x00000000#32)) := by
  after_results_simp <;> rfl

/-- The two narrowing operations before the second region. -/
theorem narrow1_v50 (X : Valuation τ sig (Elt Ideal)) : (after hostOps1_2 X (Proc.devRef .tc main_v50) : S50000x256.Idx → EReal) = X (Proc.devRef .tc main_v49) := by
  after_results_simp <;> rfl
theorem narrow1_v51 (X : Valuation τ sig (Elt Ideal)) : (after hostOps1_2 X (Proc.devRef .tc main_v51) : S256x128.Idx → EReal) = X (Proc.devRef .tc main_arg4) := by
  after_results_simp <;> rfl

/-- The first layer's gather, scale, scatter and bias, before the floor. -/
theorem W5_v48 : maximumf (F := Ideal) (φ := .f32) (W5 m ρ c (Proc.devRef .tc main_v48))
      (broadcastInDim S50000x256 ![] bcast_S_S50000x256 (constant S_ .f32 0x00000000#32))
    = aggA (m ((c : Thread nD τ).loc main_arg1)) (m ((c : Thread nD τ).loc main_arg3)) (rowsTimes (M := 50000) (K := 500) (N := 256) (m ((c : Thread nD τ).loc main_arg0)) (m ((c : Thread nD τ).loc main_arg2))) := by
  dsimp only [W5]
  after_results_simp
  rw [W4_of_ne m ρ c main_v3 (by decide), W4_of_ne m ρ c main_v6 (by decide), W4_of_ne m ρ c main_v14 (by decide),
    W4_of_ne m ρ c main_arg3 (by decide), W3_v3, W3_v6, W3_v14, W3_arg3, W4_v17]
  rfl

/-- The first layer's output. -/
theorem W7_v50 : (W7 m ρ c (Proc.devRef .tc main_v50) : S50000x256.Idx → EReal)
    = aggA (m ((c : Thread nD τ).loc main_arg1)) (m ((c : Thread nD τ).loc main_arg3)) (rowsTimes (M := 50000) (K := 500) (N := 256) (m ((c : Thread nD τ).loc main_arg0)) (m ((c : Thread nD τ).loc main_arg2))) :=
  (narrow1_v50 (W6 m ρ c)).trans ((relu1_result (W5 m ρ c)).trans (W5_v48 m ρ c))
theorem W7_v51 : (W7 m ρ c (Proc.devRef .tc main_v51) : S256x128.Idx → EReal) = (m ((c : Thread nD τ).loc main_arg4)) :=
  (narrow1_v51 (W6 m ρ c)).trans ((show W6 m ρ c (Proc.devRef .tc main_arg4) = W4 m ρ c (Proc.devRef .tc main_arg4) by
    dsimp only [W6, W5]
    after_results_simp).trans ((W4_of_ne m ρ c main_arg4 (by decide)).trans (W3_arg4 m ρ c)))

/-! ## The second region -/

theorem W8_v52 : (W8 m ρ c (Proc.devRef .tc main_v52) : S50000x128.Idx → EReal)
    = rowsTimes (M := 50000) (K := 256) (N := 128) (aggA (m ((c : Thread nD τ).loc main_arg1)) (m ((c : Thread nD τ).loc main_arg3)) (rowsTimes (M := 50000) (K := 500) (N := 256) (m ((c : Thread nD τ).loc main_arg0)) (m ((c : Thread nD τ).loc main_arg2)))) (m ((c : Thread nD τ).loc main_arg4)) :=
  (W8_arr m ρ c 2).trans ((Cert.KernelIdeal.MatRegion.arr1 (V7 m ρ) c).trans
    (congrArg₂ (rowsTimes (M := 50000) (K := 256) (N := 128)) (W7_v50 m ρ c) (W7_v51 m ρ c)))

end Cert.KernelIdeal.Chain

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.UnitBody.lean ====
/-
  The normalising head's block arithmetic, on the extended reals.

  A block of rows meets two layers of weights and is then divided, row by row, by its length. The first layer is the
  block times the first weights (a product accumulated from zero), plus the first bias row, floored at zero; the second
  is that hidden block times the second weights plus the second bias row; the last step squares the entries, sums each
  row, takes the square root, floors it at a tiny positive constant and divides the row by it. Narrowing to a shorter
  float format changes nothing on the extended reals, so the whole expression is `unitRows` of `Mlp.outPlain` of the
  five loaded blocks.
-/
import proofs.«180019_j14834817040879_1_alg».proof.Proof.Gen.KernelIdeal.Skeleton
import proofs.«180019_j14834817040879_1_alg».proof.Proof.LibTwoLayer
import proofs.«180019_j14834817040879_1_alg».proof.Proof.LibColumns
import proofs.«180019_j14834817040879_1_alg».proof.Proof.Rows
import Idealize.ShloMosaic.PureOps.Ideal.Laws
import Idealize.ShloMosaic.Lib.Pipeline.Value
import Idealize.ShloMosaic.Lib.ValueIdx

noncomputable section

namespace Cert.KernelIdeal.UnitBody

open Cert.KernelIdeal Cert.KernelIdeal.Gen Idealize.ShloMosaic Idealize.ShloMosaic.ValueIdx
open Cert.LibPlainDot Cert.LibRowBias Cert.LibBodyBias Cert.Mlp Cert.Columns Cert.Gcn

/-! ## One layer, with the operands as they are loaded -/

/-- A block times the weights, accumulated from zero, plus the bias row broadcast over the rows, floored at zero:
    the first layer of the block. -/
theorem layer_floor {R K N : ℕ} {φ₁ φ₂ : FTy} (a : FVec Ideal ⟨2, ![R, K]⟩ φ₁) (w : FVec Ideal ⟨2, ![K, N]⟩ φ₂)
    (b : FVec Ideal ⟨2, ![1, N]⟩ .f32) (d : DotDims ⟨2, ![R, K]⟩ ⟨2, ![K, N]⟩ ⟨2, ![R, N]⟩) (hd : d = DotDims.plain R K N)
    (hbc : (⟨2, ![1, N]⟩ : Shape).Broadcasts ⟨2, ![R, N]⟩) :
    maximumf (addf (matmul d none a w (constant ⟨2, ![R, N]⟩ .f32 0x00000000#32)) (broadcastTo ⟨2, ![R, N]⟩ b hbc))
        (broadcast ⟨2, ![R, N]⟩ (Scalar.ofBits (F := Ideal) .f32 0x00000000#32))
      = Mlp.hidden (M := R) (K := K) (N := N) a w b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  unfold Mlp.hidden
  rw [rowBiasFloor_apply]
  show max (FloatOps.matmul (DotDims.plain R K N) none a w (constant ⟨2, ![R, N]⟩ .f32 0x00000000#32) (ix2 p q)
      + broadcastTo ⟨2, ![R, N]⟩ b hbc (ix2 p q)) Mlp.zero = _
  rw [broadcastRow_apply, matmul_zero_plain]

/-- The same without the floor, the left operand narrowed first (the identity here): the second layer. -/
theorem layer_plain {R K N : ℕ} {φ₂ : FTy} (a : FVec Ideal ⟨2, ![R, K]⟩ .f32) (w : FVec Ideal ⟨2, ![K, N]⟩ φ₂)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    addf (matmul d none (truncf .bf16 a hlt) w (constant ⟨2, ![R, N]⟩ .f32 0x00000000#32)) (broadcastTo ⟨2, ![R, N]⟩ b hbc)
      = rowBias (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show FloatOps.matmul (DotDims.plain R K N) none (truncf .bf16 a hlt) w (constant ⟨2, ![R, N]⟩ .f32 0x00000000#32) (ix2 p q)
      + broadcastTo ⟨2, ![R, N]⟩ b hbc (ix2 p q) = _
  rw [broadcastRow_apply, matmul_zero_plain]
  rfl

/-! ## The rows' lengths -/

/-- The sum over a row of a [2000, 128] block, read at row `p`: the reduced index with coordinate `k` put back
    is `(p, k)`. -/
theorem rowSum_apply (x : FVec Ideal S2000x128 .f32) (hφ : FKind.Formats .f32)
    (hacc : (0x00000000#32 : BitVec 32) = FKind.add.neutral .f32 hφ) (p : Fin 2000) :
    multiReduction .add [1] S2000 x 0x00000000#32 reduces_S2000x128_S2000 hφ hacc (ix1 p) = ∑ k : Fin 128, x (ix2 p k) := by
  refine (Ideal.multiReduction_add_single x 0x00000000#32 reduces_S2000x128_S2000 hφ hacc (ix1 p)).trans ?_
  refine Finset.sum_congr rfl fun k _ => congrArg x ?_
  funext c; apply Fin.ext
  fin_cases c <;> rfl

/-- Squares summed along each row, the root floored at the tiny constant, every entry divided by its row's floored
    root: `unitRows`. -/
theorem rows_by_length (z : FVec Ideal S2000x128 .f32) :
    divf z (broadcastTo S2000x128
        (maximumf (sqrt (shapeCast S2000x1
            (multiReduction .add [1] S2000 (mulf z z) 0x00000000#32 reduces_S2000x128_S2000 (.inl rfl) rfl)
            shapeCasts_S2000_S2000x1))
          (broadcast S2000x1 (Scalar.ofBits (F := Ideal) .f32 0x2B8CBCCC#32)))
        broadcasts_S2000x1_S2000x128)
      = unitRows (M := 2000) (N := 128) z := by
  funext i
  obtain ⟨p, q, rfl⟩ : ∃ (p : Fin 2000) (q : Fin 128), i = ix2 p q := ⟨i 0, i 1, eq_ix2 i⟩
  rw [unitRows_apply]
  show Ideal.div (z (ix2 p q)) (broadcastTo S2000x128 _ broadcasts_S2000x1_S2000x128 (ix2 p q)) = _
  refine congrArg (Ideal.div (z (ix2 p q))) ?_
  refine (broadcastTo_a1_ab_apply _ broadcasts_S2000x1_S2000x128 p q).trans ?_
  show max (Ideal.sqrt (shapeCast S2000x1 _ shapeCasts_S2000_S2000x1 (ix2 p (0 : Fin 1)))) tiny = _
  refine congrArg (fun s => max (Ideal.sqrt s) tiny) ?_
  refine (shapeCast_a_a1_apply _ shapeCasts_S2000_S2000x1 p (0 : Fin 1)).trans ?_
  exact rowSum_apply (mulf z z) _ _ p

/-! ## The whole block -/

/-- What the body stores, as a function of the five blocks it loads. -/
theorem pay_eq (v0 : Vec Ideal S2000x128 .bf16) (v2 : Vec Ideal S128x512 .bf16) (v5 : Vec Ideal S1x512 .f32)
    (v12 : Vec Ideal S512x128 .bf16) (v15 : Vec Ideal S1x128 .f32) :
    k2_pay1 (F := Ideal) v0 v2 v5 v12 v15
      = unitRows (Mlp.outPlain (M := 2000) (K := 128) (N := 512) (P := 128) v0 v2 v5 v12 v15) := by
  unfold k2_pay1
  simp only [shapeCast_self]
  refine (rows_by_length _).trans (congrArg (unitRows (M := 2000) (N := 128)) ?_)
  refine (layer_plain _ v12 v15 dot_S2000x512_S512x128_S2000x128_1_0_0_1_n_n rfl bitsLt_bf16_f32
    broadcasts_S1x128_S2000x128).trans ?_
  unfold Mlp.outPlain
  exact congrArg (fun h => rowBias (rowsTimes h v12) v15)
    (layer_floor v0 v2 v5 dot_S2000x128_S128x512_S2000x512_1_0_0_1_n_n rfl broadcasts_S1x512_S2000x512)

end Cert.KernelIdeal.UnitBody

end
-- ==== Proof.UnitRegion.lean ====
/-
  The normalising head over the whole array.

  The head runs once per block of 2000 rows of the [50000, 128] activations; the two weight matrices and the two bias
  rows are read whole at every step. Step `t` reads rows 2000 t … 2000 t + 1999, applies the two layers and divides each
  row by its length, and writes rows 2000 t … 2000 t + 1999 of the result. An entry of `unitRows (outPlain …)` depends on
  its own row of the activations only, so what step `t` writes is that block of rows of the one whole-array function; the
  25 blocks cover the 50000 rows (row `r` lies in block `r / 2000`), so the array ends holding that function.
-/
import proofs.«180019_j14834817040879_1_alg».proof.Proof.Gen.KernelIdeal.Frame
import proofs.«180019_j14834817040879_1_alg».proof.Proof.LibTwoLayer
import proofs.«180019_j14834817040879_1_alg».proof.Proof.LibColumns
import proofs.«180019_j14834817040879_1_alg».proof.Proof.Rows
import proofs.«180019_j14834817040879_1_alg».proof.Proof.UnitBody
import Idealize.ShloMosaic.Lib.Pipeline.Value

noncomputable section

namespace Cert.KernelIdeal.UnitRegion

open Cert.KernelIdeal Cert.KernelIdeal.Gen Idealize.ShloMosaic Idealize.ShloMosaic.TcCoe Idealize.ShloMosaic.ValueIdx Idealize.SL.Sem
open Idealize.ShloMosaic.Pipeline (Dat)
open Cert.Mlp Cert.Gcn

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at step `t`, decided over the 25 steps: the activations and the result move down one block of
    rows per step, the weights and biases stay at their one block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## What one step stores, from the blocks it loads -/

/-- If the loaded activations are rows `o, …, o + 1999` of `A`, and the other four blocks are the whole arrays, the
    stored block at `y` is the whole-array function at the index `i` that `y` names in those rows. -/
theorem stored_block (A : S50000x128.Idx → EReal) (w1 : S128x512.Idx → EReal) (b1 : S1x512.Idx → EReal)
    (w2 : S512x128.Idx → EReal) (b2 : S1x128.Idx → EReal)
    (x0 : Vec Ideal S2000x128 .bf16) (x1 : Vec Ideal S128x512 .bf16)
    (x2 : Vec Ideal S1x512 .f32) (x3 : Vec Ideal S512x128 .bf16) (x4 : Vec Ideal S1x128 .f32) (o : ℕ)
    (h0 : ∀ (p : Fin 2000) (k : Fin 128) (h : o + p.val < 50000), x0 (ix2 p k) = A (ix2 (⟨o + p.val, h⟩ : Fin 50000) k))
    (h1 : x1 = w1) (h2 : x2 = b1) (h3 : x3 = w2) (h4 : x4 = b2)
    (y : S2000x128.Idx) (i : S50000x128.Idx) (hi0 : (i 0).val = o + (y 0).val) (hi1 : (i 1).val = (y 1).val) :
    out2_5 (F := Ideal) x0 x1 x2 x3 x4 y
      = unitRows (outPlain (M := 50000) (K := 128) (N := 512) (P := 128) A w1 b1 w2 b2) i := by
  subst h1 h2 h3 h4
  unfold out2_5
  rw [View.canon_unit_zero zero_offsets]
  simp only [View.ld_unit_zero (S := S2000x128) zero_offsets, View.ld_unit_zero (S := S128x512) zero_offsets,
    View.ld_unit_zero (S := S1x512) zero_offsets, View.ld_unit_zero (S := S512x128) zero_offsets,
    View.ld_unit_zero (S := S1x128) zero_offsets]
  rw [UnitBody.pay_eq]
  exact unitRows_rows o _ _
    (fun p q h => outPlain_rows o A x0 x1 x2 x3 x4 h0 (ix2 p q) (ix2 (⟨o + p.val, h⟩ : Fin 50000) q) rfl rfl) y i hi0 hi1

/-! ## The blocks a step loads -/

/-- The activations' block at step `t` is rows `2000 t, …, 2000 t + 1999` of the array. -/
theorem rows_block (c : Dev nD) (t : Fin cfg2.N) (x : S2000x128.Idx) (k : S50000x128.Idx)
    (hk0 : (k 0).val = 2000 * t.val + (x 0).val) (hk1 : (k 1).val = (x 1).val) :
    (iblk2 (F := Ideal) V c 0 t : Vec Ideal S2000x128 .bf16) x = (V c main_v85 : S50000x128.Idx → EReal) k := by
  obtain ⟨e0, e1, -⟩ := block_indices t
  unfold iblk2
  rw [View.read_apply]
  show V c main_v85 _ = V c main_v85 _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- The first weights' block at any step is the whole array. -/
theorem whole_block1 (c : Dev nD) (t : Fin cfg2.N) :
    (iblk2 (F := Ideal) V c 1 t : Vec Ideal S128x512 .bf16) = (V c main_v86 : S128x512.Idx → EReal) := by
  obtain ⟨-, -, e0, e1, -⟩ := block_indices t
  funext x
  unfold iblk2
  rw [View.read_apply]
  show V c main_v86 _ = V c main_v86 _
  congr 1
  funext a
  apply Fin.ext
  match a with
  | ⟨0, _⟩ => show win2_1.index t (0 : Fin 2) * 128 + 1 * (x 0).val = (x 0).val; rw [e0]; omega
  | ⟨1, _⟩ => show win2_1.index t (1 : Fin 2) * 512 + 1 * (x 1).val = (x 1).val; rw [e1]; omega

/-- The first bias row's block at any step is the whole array. -/
theorem whole_block2 (c : Dev nD) (t : Fin cfg2.N) :
    (iblk2 (F := Ideal) V c 2 t : Vec Ideal S1x512 .f32) = (V c main_v88 : S1x512.Idx → EReal) := by
  obtain ⟨-, -, -, -, e0, e1, -⟩ := block_indices t
  funext x
  unfold iblk2
  rw [View.read_apply]
  show V c main_v88 _ = V c main_v88 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 512 + 1 * (x 1).val = (x 1).val; rw [e1]; omega

/-- The second weights' block at any step is the whole array. -/
theorem whole_block3 (c : Dev nD) (t : Fin cfg2.N) :
    (iblk2 (F := Ideal) V c 3 t : Vec Ideal S512x128 .bf16) = (V c main_v87 : S512x128.Idx → EReal) := by
  obtain ⟨-, -, -, -, -, -, e0, e1, -⟩ := block_indices t
  funext x
  unfold iblk2
  rw [View.read_apply]
  show V c main_v87 _ = V c main_v87 _
  congr 1
  funext a
  apply Fin.ext
  match a with
  | ⟨0, _⟩ => show win2_3.index t (0 : Fin 2) * 512 + 1 * (x 0).val = (x 0).val; rw [e0]; omega
  | ⟨1, _⟩ => show win2_3.index t (1 : Fin 2) * 128 + 1 * (x 1).val = (x 1).val; rw [e1]; omega

/-- The second bias row's block at any step is the whole array. -/
theorem whole_block4 (c : Dev nD) (t : Fin cfg2.N) :
    (iblk2 (F := Ideal) V c 4 t : Vec Ideal S1x128 .f32) = (V c main_v89 : S1x128.Idx → EReal) := by
  obtain ⟨-, -, -, -, -, -, -, -, e0, e1, -⟩ := block_indices t
  funext x
  unfold iblk2
  rw [View.read_apply]
  show V c main_v89 _ = V c main_v89 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-! ## From the blocks to the array -/

/-- The whole-array function: both layers on the rows of the activations, every row divided by its length. -/
abbrev result (c : Dev nD) : S50000x128.Idx → EReal :=
  unitRows (outPlain (M := 50000) (K := 128) (N := 512) (P := 128)
    (V c main_v85) (V c main_v86) (V c main_v88) (V c main_v87) (V c main_v89))

/-- What step `t` writes back is block `t` of rows of the whole-array function. -/
theorem written_block (c : Dev nD) (t : Fin cfg2.N) :
    (dat2 (F := Ideal) V c).flushed 5 t = ((cfg2.win 5).blk t).view.read (Elt Ideal) (result V c) := by
  obtain ⟨-, -, -, -, -, -, -, -, -, -, e0, e1⟩ := block_indices t
  show (cfg2.win 5).cut (grid2.coords t) ((dat2 (F := Ideal) V c).after 5 t) = _
  rw [after2_5]
  funext y
  show out2_5 (F := Ideal) (iblk2 V c 0 t) (iblk2 V c 1 t) (iblk2 V c 2 t) (iblk2 V c 3 t) (iblk2 V c 4 t) y
    = result V c (((cfg2.win 5).blk t).view.emb y)
  refine stored_block (V c main_v85) (V c main_v86) (V c main_v88) (V c main_v87) (V c main_v89)
    (iblk2 V c 0 t) (iblk2 V c 1 t) (iblk2 V c 2 t) (iblk2 V c 3 t) (iblk2 V c 4 t) (2000 * t.val)
    (fun p k h => rows_block V c t (ix2 p k) (ix2 (⟨2000 * t.val + p.val, h⟩ : Fin 50000) k) rfl rfl)
    (whole_block1 V c t) (whole_block2 V c t) (whole_block3 V c t) (whole_block4 V c t)
    y (((cfg2.win 5).blk t).view.emb y) ?_ ?_
  · show win2_5.index t (0 : Fin 2) * 2000 + 1 * (y 0).val = 2000 * t.val + (y 0).val
    rw [e0]; omega
  · show win2_5.index t (1 : Fin 2) * 128 + 1 * (y 1).val = (y 1).val
    rw [e1]; omega

/-- An index of the array is in step `t`'s block iff each coordinate is in the block's range on its axis. -/
theorem mem_block (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v90).slice (win2_5.rect t)).set ↔ _
  rw [View.set_slice_whole, Rect.mem_set_unit]
  exact Iff.rfl

/-- Row `r` lies in the block of step `r / 2000`. -/
theorem covered (i : S50000x128.Idx) :
    ∃ t : Fin cfg2.N, (cfg2.win 5).flush t = true ∧ i ∈ ((cfg2.win 5).blk t).view.set := by
  have hN : cfg2.N = 25 := N_2
  have h0 : (i 0).val < 50000 := idx2_lt0 i
  have h1 : (i 1).val < 128 := idx2_lt1 i
  obtain ⟨t, ht⟩ : ∃ t : Fin cfg2.N, t.val = (i 0).val / 2000 := ⟨⟨(i 0).val / 2000, by rw [hN]; omega⟩, rfl⟩
  obtain ⟨-, -, -, -, -, -, -, -, -, -, e0, e1⟩ := block_indices t
  refine ⟨t, flush2_5 t, ?_⟩
  rw [mem_block]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 128 ≤ (i 1).val ∧ (i 1).val < win2_5.index t (1 : Fin 2) * 128 + 128
    rw [e1]; omega

/-- The array after the region: both layers on the rows of the activations, every row divided by its length. -/
theorem arr2 (c : Dev nD) :
    ((dat2 (F := Ideal) V c).arrAt 5 cfg2.N : S50000x128.Idx → EReal)
      = Cert.Gcn.unitRows (Cert.Mlp.outPlain (M := 50000) (K := 128) (N := 512) (P := 128)
          (V c main_v85) (V c main_v86) (V c main_v88) (V c main_v87) (V c main_v89)) :=
  (dat2 (F := Ideal) V c).arrAt_eq_of_cover 5 (result V c) (fun t _ => written_block V c t) covered

end Cert.KernelIdeal.UnitRegion

end
-- ==== Proof.SoftRegion.lean ====
/-
  The region that ends in a row softmax, read as a whole array.

  The region runs over 25 points. At point `t` its body takes rows `2000 t … 2000 t + 1999` of the input array
  (a `[2000, 128]` block) through two layers — times the `[128, 512]` weights, plus the first bias row, floored at zero;
  then times the `[512, 10]` weights, plus the second bias row — and then through the row softmax: with `top` the
  maximum of a row (folded from minus infinity), an entry becomes `exp (entry - top)` divided by the sum of those
  exponentials over the row. The `[2000, 10]` result is written back as rows `2000 t … 2000 t + 1999` of the output.
  On the extended reals the body's result is `softRows` of `outPlain` of the loaded blocks; an entry of either depends
  on its own row of the input only, so the block is the same rows of `softRows (outPlain …)` of the whole arrays; and
  every row `r < 50000` lies in the block of point `r / 2000`. Hence the output array after the region is
  `softRows (outPlain …)` of the arrays the region was entered with.
-/
import proofs.«180019_j14834817040879_1_alg».proof.Proof.Gen.KernelIdeal.Frame
import proofs.«180019_j14834817040879_1_alg».proof.Proof.LibTwoLayer
import proofs.«180019_j14834817040879_1_alg».proof.Proof.LibColumns
import proofs.«180019_j14834817040879_1_alg».proof.Proof.Rows
import Idealize.ShloMosaic.Lib.Pipeline.Value
import Idealize.ShloMosaic.PureOps.Ideal.Laws

noncomputable section

namespace Cert.KernelIdeal.SoftRegion

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot (rowsTimes)
open Cert.LibRowBias (rowBias rowBiasFloor)
open Cert.Mlp (outPlain)
open Cert.Gcn (rowTop expRows rowExpSum softRows)

variable (V : (c : Dev nD) → (b : Ref sig .tc) → Buf (Elt Ideal) ((c : Thread nD τ).loc b))

/-- The zero offsets of a whole-block access, as a constant function. -/
theorem zeros2 : (![0, 0] : Fin 2 → Nat) = fun _ => 0 := funext fun a => by fin_cases a <;> rfl

/-! ## The two layers, as the body spells them -/

/-- A block times the weights on the matrix unit accumulated into zero, plus the bias row broadcast over the rows,
    floored at a zero splat, is the first layer `hidden` of the block (whatever the operands' float formats). -/
theorem layer_floor {R K N : ℕ} {φ₁ φ₂ : FTy} (a : FVec Ideal ⟨2, ![R, K]⟩ φ₁) (w : FVec Ideal ⟨2, ![K, N]⟩ φ₂)
    (b : FVec Ideal ⟨2, ![1, N]⟩ .f32) (d : DotDims ⟨2, ![R, K]⟩ ⟨2, ![K, N]⟩ ⟨2, ![R, N]⟩) (hd : d = DotDims.plain R K N)
    (hbc : (⟨2, ![1, N]⟩ : Shape).Broadcasts ⟨2, ![R, N]⟩) :
    maximumf (addf (matmul d none a w (constant ⟨2, ![R, N]⟩ .f32 0x00000000#32)) (broadcastTo ⟨2, ![R, N]⟩ b hbc))
        (broadcast ⟨2, ![R, N]⟩ (Scalar.ofBits (F := Ideal) .f32 0x00000000#32))
      = Cert.Mlp.hidden (M := R) (K := K) (N := N) a w b := by
  subst hd
  funext i
  obtain ⟨p, q, rfl⟩ : ∃ (p : Fin R) (q : Fin N), i = ix2 p q := ⟨i 0, i 1, eq_ix2 i⟩
  unfold Cert.Mlp.hidden
  rw [Cert.LibRowBias.rowBiasFloor_apply]
  show max (FloatOps.matmul (DotDims.plain R K N) none a w (constant ⟨2, ![R, N]⟩ .f32 0x00000000#32) (ix2 p q)
      + broadcastTo ⟨2, ![R, N]⟩ b hbc (ix2 p q)) Cert.Mlp.zero = _
  rw [Cert.LibBodyBias.broadcastRow_apply, Cert.LibPlainDot.matmul_zero_plain]

/-- The same without the floor: the product plus the bias row is `rowBias` of `rowsTimes`. -/
theorem layer_plain {R K N : ℕ} {φ₁ φ₂ : FTy} (a : FVec Ideal ⟨2, ![R, K]⟩ φ₁) (w : FVec Ideal ⟨2, ![K, N]⟩ φ₂)
    (b : FVec Ideal ⟨2, ![1, N]⟩ .f32) (d : DotDims ⟨2, ![R, K]⟩ ⟨2, ![K, N]⟩ ⟨2, ![R, N]⟩) (hd : d = DotDims.plain R K N)
    (hbc : (⟨2, ![1, N]⟩ : Shape).Broadcasts ⟨2, ![R, N]⟩) :
    addf (matmul d none a w (constant ⟨2, ![R, N]⟩ .f32 0x00000000#32)) (broadcastTo ⟨2, ![R, N]⟩ b hbc)
      = rowBias (M := R) (N := N) (rowsTimes a w) b := by
  subst hd
  funext i
  obtain ⟨p, q, rfl⟩ : ∃ (p : Fin R) (q : Fin N), i = ix2 p q := ⟨i 0, i 1, eq_ix2 i⟩
  rw [Cert.LibRowBias.rowBias_apply]
  show FloatOps.matmul (DotDims.plain R K N) none a w (constant ⟨2, ![R, N]⟩ .f32 0x00000000#32) (ix2 p q)
      + broadcastTo ⟨2, ![R, N]⟩ b hbc (ix2 p q) = _
  rw [Cert.LibBodyBias.broadcastRow_apply, Cert.LibPlainDot.matmul_zero_plain]

/-! ## The row softmax, as the body spells it -/

/-- A `[2000]` vector cast to a column and broadcast along the rows reads, at `(p, q)`, the vector at `p`. -/
theorem col_apply (x : FVec Ideal S2000 .f32) (sc : S2000.ShapeCasts S2000x1) (bc : S2000x1.Broadcasts S2000x10)
    (p : Fin 2000) (q : Fin 10) : broadcastTo S2000x10 (shapeCast S2000x1 x sc) bc (ix2 p q) = x (ix1 p) :=
  (Cert.Columns.broadcastTo_a1_ab_apply _ bc p q).trans (Cert.Columns.shapeCast_a_a1_apply x sc p 0)

/-- The index of a `[2000, 10]` array over row `p` at position `k` of the reduced axis is `(p, k)`. -/
theorem lift_eq (h : S2000x10.Reduces [1] S2000) (p : Fin 2000) (k : Fin 10) : h.lift (ix1 p) k = ix2 p k :=
  funext fun a => Fin.ext (by match a with | ⟨0, _⟩ => rfl | ⟨1, _⟩ => rfl)

/-- The maximum-reduction along the rows, started from minus infinity, at `p` is the row's maximum `rowTop z p`. -/
theorem top_eq (z : FVec Ideal S2000x10 .f32) (h : S2000x10.Reduces [1] S2000) (hφ : FKind.Formats .f32)
    (hacc : (0xFF800000#32 : BitVec 32) = FKind.maximumf.neutral .f32 hφ) (p : Fin 2000) :
    multiReduction .maximumf [1] S2000 z 0xFF800000#32 h hφ hacc (ix1 p) = rowTop (M := 2000) (N := 10) z p := by
  refine (Ideal.multiReduction_maximumf_single z _ h hφ hacc (ix1 p)).trans ?_
  unfold rowTop
  show Finset.fold max (Ideal.ofBits .f32 0xFF800000#32) (fun k : Fin 10 => z (h.lift (ix1 p) k)) Finset.univ = _
  exact congrArg (fun f => Finset.fold max (Ideal.ofBits .f32 0xFF800000#32) f (Finset.univ : Finset (Fin 10)))
    (funext fun k => congrArg z (lift_eq h p k))

/-- The add-reduction along the rows, started from zero, at `p` is the sum over `k` of the entries `(p, k)`. -/
theorem sum_eq (e : FVec Ideal S2000x10 .f32) (h : S2000x10.Reduces [1] S2000) (hφ : FKind.Formats .f32)
    (hacc : (0x00000000#32 : BitVec 32) = FKind.add.neutral .f32 hφ) (p : Fin 2000) :
    multiReduction .add [1] S2000 e 0x00000000#32 h hφ hacc (ix1 p) = ∑ k : Fin 10, e (ix2 p k) := by
  refine (Ideal.multiReduction_add_single e _ h hφ hacc (ix1 p)).trans ?_
  show ∑ k : Fin 10, e (h.lift (ix1 p) k) = _
  exact Finset.sum_congr rfl fun k _ => congrArg e (lift_eq h p k)

/-- Each entry minus its row's maximum, exponentiated: `expRows z`. -/
theorem exp_eq (z : FVec Ideal S2000x10 .f32) (sc : S2000.ShapeCasts S2000x1) (bc : S2000x1.Broadcasts S2000x10)
    (h : S2000x10.Reduces [1] S2000) (hφ : FKind.Formats .f32)
    (hacc : (0xFF800000#32 : BitVec 32) = FKind.maximumf.neutral .f32 hφ) :
    exp (subf z (broadcastTo S2000x10 (shapeCast S2000x1 (multiReduction .maximumf [1] S2000 z 0xFF800000#32 h hφ hacc) sc) bc))
      = expRows (M := 2000) (N := 10) z := by
  funext i
  obtain ⟨p, q, rfl⟩ : ∃ (p : Fin 2000) (q : Fin 10), i = ix2 p q := ⟨i 0, i 1, eq_ix2 i⟩
  rw [Cert.Gcn.expRows_apply]
  show Ideal.exp (z (ix2 p q)
      - broadcastTo S2000x10 (shapeCast S2000x1 (multiReduction .maximumf [1] S2000 z 0xFF800000#32 h hφ hacc) sc) bc (ix2 p q)) = _
  rw [col_apply, top_eq]

/-- Those exponentials divided by their row sums: the row softmax `softRows z`. -/
theorem soft_eq (z : FVec Ideal S2000x10 .f32) (sc : S2000.ShapeCasts S2000x1) (bc : S2000x1.Broadcasts S2000x10)
    (h : S2000x10.Reduces [1] S2000) (hφ : FKind.Formats .f32)
    (hmax : (0xFF800000#32 : BitVec 32) = FKind.maximumf.neutral .f32 hφ)
    (hadd : (0x00000000#32 : BitVec 32) = FKind.add.neutral .f32 hφ) :
    divf (exp (subf z (broadcastTo S2000x10 (shapeCast S2000x1 (multiReduction .maximumf [1] S2000 z 0xFF800000#32 h hφ hmax) sc) bc)))
        (broadcastTo S2000x10 (shapeCast S2000x1 (multiReduction .add [1] S2000
          (exp (subf z (broadcastTo S2000x10 (shapeCast S2000x1 (multiReduction .maximumf [1] S2000 z 0xFF800000#32 h hφ hmax) sc) bc)))
          0x00000000#32 h hφ hadd) sc) bc)
      = softRows (M := 2000) (N := 10) z := by
  rw [exp_eq z sc bc h hφ hmax]
  funext i
  obtain ⟨p, q, rfl⟩ : ∃ (p : Fin 2000) (q : Fin 10), i = ix2 p q := ⟨i 0, i 1, eq_ix2 i⟩
  show Ideal.div (expRows z (ix2 p q))
      (broadcastTo S2000x10 (shapeCast S2000x1 (multiReduction (F := Ideal) (φ := .f32) .add [1] S2000 (expRows z) 0x00000000#32 h hφ hadd) sc) bc (ix2 p q))
    = Ideal.div (expRows z (ix2 p q)) (rowExpSum z p)
  rw [col_apply, sum_eq]
  rfl

/-- Both products' dimension numbers are the plain ones: contract the left operand's columns with the right
    operand's rows. -/
theorem dims3a : dot_S2000x128_S128x512_S2000x512_1_0_0_1_n_n = DotDims.plain 2000 128 512 := rfl
theorem dims3b : dot_S2000x512_S512x10_S2000x10_1_0_0_1_n_n = DotDims.plain 2000 512 10 := rfl

/-- The body's result, from the five blocks it loads: the row softmax of the two layers of the input block (the casts
    are to the operands' own shapes; narrowing the hidden layer to bf16 changes nothing on the extended reals). -/
theorem pay3 (v0 : Vec Ideal S2000x128 .bf16) (v2 : Vec Ideal S128x512 .bf16) (v5 : Vec Ideal S1x512 .f32)
    (v12 : Vec Ideal S512x10 .bf16) (v15 : Vec Ideal S1x10 .f32) :
    (k3_pay1 (F := Ideal) v0 v2 v5 v12 v15 : S2000x10.Idx → EReal)
      = softRows (outPlain (M := 2000) (K := 128) (N := 512) (P := 10) v0 v2 v5 v12 v15) := by
  unfold k3_pay1
  simp only [shapeCast_self]
  rw [layer_floor v0 v2 v5 _ dims3a broadcasts_S1x512_S2000x512]
  rw [layer_plain (truncf .bf16 (Cert.Mlp.hidden (M := 2000) (K := 128) (N := 512) v0 v2 v5) bitsLt_bf16_f32) v12 v15 _ dims3b broadcasts_S1x10_S2000x10]
  exact soft_eq _ _ _ _ _ _ _

/-! ## From blocks to the array -/

/-- The block indices at point `t`: the input and output windows are at block row `t`, block column 0; the weight and
    bias windows stay at block (0, 0). -/
theorem idx3 : ∀ t : Fin cfg3.N, win3_0.index t (0 : Fin 2) = t.val ∧ win3_0.index t (1 : Fin 2) = 0
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ win3_5.index t (0 : Fin 2) = t.val ∧ win3_5.index t (1 : Fin 2) = 0 :=
  (by decide +kernel : ∀ t : Fin grid3.N, _)

/-- The input window's block at point `t` is rows `2000 t, …` of the input array: entry `(y, k)` of the block is entry
    `(2000 t + y, k)` of the array. -/
theorem left3 (c : Dev nD) (t : Fin cfg3.N) (y : Fin 2000) (k : Fin 128) (h : 2000 * t.val + y.val < 50000) :
    (iblk3 V c 0 t : S2000x128.Idx → EReal) (ix2 y k)
      = (V c main_v91 : S50000x128.Idx → EReal) (ix2 (⟨2000 * t.val + y.val, h⟩ : Fin 50000) k) := by
  obtain ⟨e0, e1, -⟩ := idx3 t
  unfold iblk3
  rw [View.read_apply]
  show V c main_v91 _ = V c main_v91 _
  refine congrArg _ (funext fun a => Fin.ext ?_)
  match a with
  | ⟨0, _⟩ => show win3_0.index t (0 : Fin 2) * 2000 + 1 * y.val = 2000 * t.val + y.val; rw [e0]; omega
  | ⟨1, _⟩ => show win3_0.index t (1 : Fin 2) * 128 + 1 * k.val = k.val; rw [e1]; omega

/-- The first weights' block at every point is the whole array. -/
theorem whole3_1 (c : Dev nD) (t : Fin cfg3.N) :
    (iblk3 V c 1 t : S128x512.Idx → EReal) = (V c main_v92 : S128x512.Idx → EReal) := by
  obtain ⟨e0, e1⟩ := (idx3 t).2.2.1
  funext y
  unfold iblk3
  rw [View.read_apply]
  show V c main_v92 _ = V c main_v92 _
  refine congrArg _ (funext fun a => Fin.ext ?_)
  match a with
  | ⟨0, _⟩ => show win3_1.index t (0 : Fin 2) * 128 + 1 * (y 0).val = (y 0).val; rw [e0]; omega
  | ⟨1, _⟩ => show win3_1.index t (1 : Fin 2) * 512 + 1 * (y 1).val = (y 1).val; rw [e1]; omega

/-- The first bias row's block at every point is the whole array. -/
theorem whole3_2 (c : Dev nD) (t : Fin cfg3.N) :
    (iblk3 V c 2 t : S1x512.Idx → EReal) = (V c main_v94 : S1x512.Idx → EReal) := by
  obtain ⟨e0, e1⟩ := (idx3 t).2.2.2.1
  funext y
  unfold iblk3
  rw [View.read_apply]
  show V c main_v94 _ = V c main_v94 _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 512 + 1 * (y 1).val = (y 1).val; rw [e1]; omega

/-- The second weights' block at every point is the whole array. -/
theorem whole3_3 (c : Dev nD) (t : Fin cfg3.N) :
    (iblk3 V c 3 t : S512x10.Idx → EReal) = (V c main_v93 : S512x10.Idx → EReal) := by
  obtain ⟨e0, e1⟩ := (idx3 t).2.2.2.2.1
  funext y
  unfold iblk3
  rw [View.read_apply]
  show V c main_v93 _ = V c main_v93 _
  refine congrArg _ (funext fun a => Fin.ext ?_)
  match a with
  | ⟨0, _⟩ => show win3_3.index t (0 : Fin 2) * 512 + 1 * (y 0).val = (y 0).val; rw [e0]; omega
  | ⟨1, _⟩ => show win3_3.index t (1 : Fin 2) * 10 + 1 * (y 1).val = (y 1).val; rw [e1]; omega

/-- The second bias row's block at every point is the whole array. -/
theorem whole3_4 (c : Dev nD) (t : Fin cfg3.N) :
    (iblk3 V c 4 t : S1x10.Idx → EReal) = (V c main_v95 : S1x10.Idx → EReal) := by
  obtain ⟨e0, e1⟩ := (idx3 t).2.2.2.2.2.1
  funext y
  unfold iblk3
  rw [View.read_apply]
  show V c main_v95 _ = V c main_v95 _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 10 + 1 * (y 1).val = (y 1).val; rw [e1]; omega

/-- What point `t` writes back is block `t` of `softRows (outPlain …)` of the whole arrays: the body's one store fills
    the block with `softRows (outPlain …)` of the loaded blocks, and both maps act row by row. -/
theorem flushed3 (c : Dev nD) (t : Fin cfg3.N) :
    (dat3 (F := Ideal) V c).flushed 5 t
      = ((cfg3.win 5).blk t).view.read (Elt Ideal)
          (softRows (outPlain (M := 50000) (K := 128) (N := 512) (P := 10)
            (V c main_v91) (V c main_v92) (V c main_v94) (V c main_v93) (V c main_v95))) := by
  show (cfg3.win 5).cut (grid3.coords t) ((dat3 (F := Ideal) V c).after 5 t) = _
  rw [after3_5]
  unfold out3_5
  rw [View.canon_unit_zero zeros2]
  simp only [View.ld_unit_zero (S := S2000x128) zeros2, View.ld_unit_zero (S := S128x512) zeros2,
    View.ld_unit_zero (S := S1x512) zeros2, View.ld_unit_zero (S := S512x10) zeros2, View.ld_unit_zero (S := S1x10) zeros2]
  obtain ⟨e0, e1⟩ := (idx3 t).2.2.2.2.2.2
  funext y
  rw [View.read_apply]
  refine (congrFun (pay3 (iblk3 V c 0 t) (iblk3 V c 1 t) (iblk3 V c 2 t) (iblk3 V c 3 t) (iblk3 V c 4 t)) y).trans ?_
  rw [whole3_1 V c t, whole3_2 V c t, whole3_3 V c t, whole3_4 V c t]
  refine Cert.Gcn.softRows_rows (M := 50000) (R := 2000) (N := 10) (2000 * t.val)
    (outPlain (M := 50000) (K := 128) (N := 512) (P := 10) (V c main_v91) (V c main_v92) (V c main_v94) (V c main_v93) (V c main_v95))
    (outPlain (M := 2000) (K := 128) (N := 512) (P := 10) (iblk3 V c 0 t) (V c main_v92) (V c main_v94) (V c main_v93) (V c main_v95))
    (fun p q h => Cert.Mlp.outPlain_rows (M := 50000) (R := 2000) (2000 * t.val) (V c main_v91) (iblk3 V c 0 t)
      (V c main_v92) (V c main_v94) (V c main_v93) (V c main_v95) (fun y' k hlt => left3 V c t y' k hlt)
      (ix2 p q) (ix2 (⟨2000 * t.val + p.val, h⟩ : Fin 50000) q) rfl rfl) y _ ?_ ?_
  · show win3_5.index t (0 : Fin 2) * 2000 + 1 * (y 0).val = 2000 * t.val + (y 0).val; rw [e0]; omega
  · show win3_5.index t (1 : Fin 2) * 10 + 1 * (y 1).val = (y 1).val; rw [e1]; omega

/-- An index of the output array is in point `t`'s block iff each coordinate is in the block's range on its axis. -/
theorem mem_blk3 (t : Fin cfg3.N) (i : S50000x10.Idx) :
    i ∈ ((cfg3.win 5).blk t).view.set ↔ ∀ a : Fin 2, win3_5.index t a * S2000x10.size a ≤ (i a).val
      ∧ (i a).val < win3_5.index t a * S2000x10.size a + S2000x10.size a := by
  show i ∈ ((View.whole main_v96).slice (win3_5.rect t)).set ↔ _
  rw [View.set_slice_whole, Rect.mem_set_unit]
  exact Iff.rfl

/-- Row `r` of the output array lies in the block of point `r / 2000`, and every point writes its block back. -/
theorem cover3 (i : S50000x10.Idx) :
    ∃ t : Fin cfg3.N, (cfg3.win 5).flush t = true ∧ i ∈ ((cfg3.win 5).blk t).view.set := by
  have hN : cfg3.N = 25 := N_3
  have hi0 : (i 0).val < 50000 := (i 0).isLt
  have hi1 : (i 1).val < 10 := (i 1).isLt
  let t : Fin cfg3.N := ⟨(i 0).val / 2000, by rw [hN]; omega⟩
  have htv : t.val = (i 0).val / 2000 := rfl
  obtain ⟨e0, e1⟩ := (idx3 t).2.2.2.2.2.2
  refine ⟨t, flush3_5 t, ?_⟩
  rw [mem_blk3]
  intro a
  match a with
  | ⟨0, _⟩ =>
    show win3_5.index t (0 : Fin 2) * 2000 ≤ (i 0).val ∧ (i 0).val < win3_5.index t (0 : Fin 2) * 2000 + 2000
    rw [e0, htv]; omega
  | ⟨1, _⟩ =>
    show win3_5.index t (1 : Fin 2) * 10 ≤ (i 1).val ∧ (i 1).val < win3_5.index t (1 : Fin 2) * 10 + 10
    rw [e1]; omega

/-- The output array after the region is the row softmax of the two layers of the arrays the region was entered with. -/
theorem arr3 (c : Dev nD) :
    ((dat3 (F := Ideal) V c).arrAt 5 cfg3.N : S50000x10.Idx → EReal)
      = Cert.Gcn.softRows (Cert.Mlp.outPlain (M := 50000) (K := 128) (N := 512) (P := 10)
          (V c main_v91) (V c main_v92) (V c main_v94) (V c main_v93) (V c main_v95)) :=
  (dat3 (F := Ideal) V c).arrAt_eq_of_cover 5 _ (fun t _ => flushed3 V c t) cover3

end Cert.KernelIdeal.SoftRegion

end
-- ==== Proof.KChain2.lean ====
/-
  The idealized kernel program's boundary contents from its second region to the return, read back.

  The host applies the second graph layer's chain to the second region's product: the node features both heads read.
  Each head region then maps the features, block of rows by block of rows, through its two-layer perceptron and its
  row-wise map; the two results are the network's two outputs as functions of the argument arrays.
-/
import proofs.«180019_j14834817040879_1_alg».proof.Proof.KChain1
import proofs.«180019_j14834817040879_1_alg».proof.Proof.UnitRegion
import proofs.«180019_j14834817040879_1_alg».proof.Proof.SoftRegion

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.LibPlainDot Cert.Gcn

variable (m : (ℓ : Loc nD τ sig) → Buf (Elt Ideal) ℓ) (ρ : Dev nD → PrngReg) (c : Dev nD)

/-! ## The second graph layer's output -/

/-- The outlined floor at zero, from any contents. -/
theorem relu2_result (X : Valuation τ sig (Elt Ideal)) :
    after hostOps2_1 X (Proc.devRef .tc main_v84)
      = maximumf (F := Ideal) (φ := .f32) (X (Proc.devRef .tc main_v83))
          (broadcastInDim S50000x128 ![] bcast_S_S50000x128 (constant S_ .f32 0x00000000#32)) := by
  after_results_simp <;> rfl

/-- The narrowing and reshaping operations before the first head: each result is its operand. -/
theorem prep2_v84 (X : Valuation τ sig (Elt Ideal)) : after hostOps2_2 X (Proc.devRef .tc main_v84) = X (Proc.devRef .tc main_v84) := by
  after_results_simp
theorem prep2_v85 (X : Valuation τ sig (Elt Ideal)) : (after hostOps2_2 X (Proc.devRef .tc main_v85) : S50000x128.Idx → EReal) = X (Proc.devRef .tc main_v84) := by
  after_results_simp <;> rfl
theorem prep2_v86 (X : Valuation τ sig (Elt Ideal)) : (after hostOps2_2 X (Proc.devRef .tc main_v86) : S128x512.Idx → EReal) = X (Proc.devRef .tc main_arg6) := by
  after_results_simp <;> rfl
theorem prep2_v87 (X : Valuation τ sig (Elt Ideal)) : (after hostOps2_2 X (Proc.devRef .tc main_v87) : S512x128.Idx → EReal) = X (Proc.devRef .tc main_arg8) := by
  after_results_simp <;> rfl
theorem prep2_v88 (X : Valuation τ sig (Elt Ideal)) : (after hostOps2_2 X (Proc.devRef .tc main_v88) : S1x512.Idx → EReal)
    = shapeCast ⟨2, ![1, 512]⟩ (X (Proc.devRef .tc main_arg7) : S512.Idx → EReal) cast512 := by
  after_results_simp <;> rfl
theorem prep2_v89 (X : Valuation τ sig (Elt Ideal)) : (after hostOps2_2 X (Proc.devRef .tc main_v89) : S1x128.Idx → EReal)
    = shapeCast ⟨2, ![1, 128]⟩ (X (Proc.devRef .tc main_arg9) : S128.Idx → EReal) cast128 := by
  after_results_simp <;> rfl

/-- The second layer's gather, scale, scatter and bias, floored: the node features both heads read. -/
theorem W9_v83 : maximumf (F := Ideal) (φ := .f32) (W9 m ρ c (Proc.devRef .tc main_v83))
      (broadcastInDim S50000x128 ![] bcast_S_S50000x128 (constant S_ .f32 0x00000000#32))
    = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W9]
  after_results_simp
  rw [W8_main_v3, W8_main_v6, W8_main_v14, W8_main_arg5, W3_v3, W3_v6, W3_v14, W3_arg5, W8_v52]
  rfl
theorem W10_v84 : (W10 m ρ c (Proc.devRef .tc main_v84) : S50000x128.Idx → EReal) = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (relu2_result (W9 m ρ c)).trans (W9_v83 m ρ c)
theorem W11_v84 : (W11 m ρ c (Proc.devRef .tc main_v84) : S50000x128.Idx → EReal) = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (prep2_v84 (W10 m ρ c)).trans (W10_v84 m ρ c)

theorem W10_arg6 : W10 m ρ c (Proc.devRef .tc main_arg6) = (m ((c : Thread nD τ).loc main_arg6)) :=
  (show W10 m ρ c (Proc.devRef .tc main_arg6) = W8 m ρ c (Proc.devRef .tc main_arg6) by
    dsimp only [W10, W9]
    after_results_simp).trans ((W8_main_arg6 m ρ c).trans (W3_arg6 m ρ c))
theorem W10_arg7 : W10 m ρ c (Proc.devRef .tc main_arg7) = (m ((c : Thread nD τ).loc main_arg7)) :=
  (show W10 m ρ c (Proc.devRef .tc main_arg7) = W8 m ρ c (Proc.devRef .tc main_arg7) by
    dsimp only [W10, W9]
    after_results_simp).trans ((W8_main_arg7 m ρ c).trans (W3_arg7 m ρ c))
theorem W10_arg8 : W10 m ρ c (Proc.devRef .tc main_arg8) = (m ((c : Thread nD τ).loc main_arg8)) :=
  (show W10 m ρ c (Proc.devRef .tc main_arg8) = W8 m ρ c (Proc.devRef .tc main_arg8) by
    dsimp only [W10, W9]
    after_results_simp).trans ((W8_main_arg8 m ρ c).trans (W3_arg8 m ρ c))
theorem W10_arg9 : W10 m ρ c (Proc.devRef .tc main_arg9) = (m ((c : Thread nD τ).loc main_arg9)) :=
  (show W10 m ρ c (Proc.devRef .tc main_arg9) = W8 m ρ c (Proc.devRef .tc main_arg9) by
    dsimp only [W10, W9]
    after_results_simp).trans ((W8_main_arg9 m ρ c).trans (W3_arg9 m ρ c))

/-- The first head's operands. -/
theorem W11_v85 : (W11 m ρ c (Proc.devRef .tc main_v85) : S50000x128.Idx → EReal) = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (prep2_v85 (W10 m ρ c)).trans (W10_v84 m ρ c)
theorem W11_v86 : (W11 m ρ c (Proc.devRef .tc main_v86) : S128x512.Idx → EReal) = (m ((c : Thread nD τ).loc main_arg6)) :=
  (prep2_v86 (W10 m ρ c)).trans (W10_arg6 m ρ c)
theorem W11_v87 : (W11 m ρ c (Proc.devRef .tc main_v87) : S512x128.Idx → EReal) = (m ((c : Thread nD τ).loc main_arg8)) :=
  (prep2_v87 (W10 m ρ c)).trans (W10_arg8 m ρ c)
theorem W11_v88 : (W11 m ρ c (Proc.devRef .tc main_v88) : S1x512.Idx → EReal) = shapeCast ⟨2, ![1, 512]⟩ (m ((c : Thread nD τ).loc main_arg7)) cast512 :=
  (prep2_v88 (W10 m ρ c)).trans (congrArg (fun x => shapeCast ⟨2, ![1, 512]⟩ x cast512) (W10_arg7 m ρ c))
theorem W11_v89 : (W11 m ρ c (Proc.devRef .tc main_v89) : S1x128.Idx → EReal) = shapeCast ⟨2, ![1, 128]⟩ (m ((c : Thread nD τ).loc main_arg9)) cast128 :=
  (prep2_v89 (W10 m ρ c)).trans (congrArg (fun x => shapeCast ⟨2, ![1, 128]⟩ x cast128) (W10_arg9 m ρ c))

/-! ## The two heads -/

/-- The narrowing and reshaping operations before the second head. -/
theorem prep3_v90 (X : Valuation τ sig (Elt Ideal)) : after hostOps3 X (Proc.devRef .tc main_v90) = X (Proc.devRef .tc main_v90) := by
  after_results_simp
theorem prep3_v91 (X : Valuation τ sig (Elt Ideal)) : (after hostOps3 X (Proc.devRef .tc main_v91) : S50000x128.Idx → EReal) = X (Proc.devRef .tc main_v84) := by
  after_results_simp <;> rfl
theorem prep3_v92 (X : Valuation τ sig (Elt Ideal)) : (after hostOps3 X (Proc.devRef .tc main_v92) : S128x512.Idx → EReal) = X (Proc.devRef .tc main_arg10) := by
  after_results_simp <;> rfl
theorem prep3_v93 (X : Valuation τ sig (Elt Ideal)) : (after hostOps3 X (Proc.devRef .tc main_v93) : S512x10.Idx → EReal) = X (Proc.devRef .tc main_arg12) := by
  after_results_simp <;> rfl
theorem prep3_v94 (X : Valuation τ sig (Elt Ideal)) : (after hostOps3 X (Proc.devRef .tc main_v94) : S1x512.Idx → EReal)
    = shapeCast ⟨2, ![1, 512]⟩ (X (Proc.devRef .tc main_arg11) : S512.Idx → EReal) cast512 := by
  after_results_simp <;> rfl
theorem prep3_v95 (X : Valuation τ sig (Elt Ideal)) : (after hostOps3 X (Proc.devRef .tc main_v95) : S1x10.Idx → EReal)
    = shapeCast ⟨2, ![1, 10]⟩ (X (Proc.devRef .tc main_arg13) : S10.Idx → EReal) cast10 := by
  after_results_simp <;> rfl

/-- The first result: the projection head on the node features, rows divided by their floored length. -/
theorem out0 : (W14 m ρ c (Proc.devRef .tc main_v90) : S50000x128.Idx → EReal)
    = outZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_of_ne m ρ c main_v90 (by decide)).trans ((prep3_v90 (W12 m ρ c)).trans
    ((W12_arr m ρ c 5).trans ((Cert.KernelIdeal.UnitRegion.arr2 (V11 m ρ) c).trans ?_)))
  show unitRows (Cert.Mlp.outPlain (M := 50000) (K := 128) (N := 512) (P := 128)
      (W11 m ρ c (Proc.devRef .tc main_v85) : S50000x128.Idx → EReal) (W11 m ρ c (Proc.devRef .tc main_v86) : S128x512.Idx → EReal)
      (W11 m ρ c (Proc.devRef .tc main_v88) : S1x512.Idx → EReal) (W11 m ρ c (Proc.devRef .tc main_v87) : S512x128.Idx → EReal)
      (W11 m ρ c (Proc.devRef .tc main_v89) : S1x128.Idx → EReal)) = _
  rw [W11_v85, W11_v86, W11_v88, W11_v87, W11_v89]
  rfl

/-- The second head's operands. -/
theorem W13_v91 : (W13 m ρ c (Proc.devRef .tc main_v91) : S50000x128.Idx → EReal) = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (prep3_v91 (W12 m ρ c)).trans ((W12_of_ne m ρ c main_v84 (by decide)).trans (W11_v84 m ρ c))
theorem W13_v92 : (W13 m ρ c (Proc.devRef .tc main_v92) : S128x512.Idx → EReal) = (m ((c : Thread nD τ).loc main_arg10)) :=
  (prep3_v92 (W12 m ρ c)).trans ((W12_main_arg10 m ρ c).trans (W3_arg10 m ρ c))
theorem W13_v93 : (W13 m ρ c (Proc.devRef .tc main_v93) : S512x10.Idx → EReal) = (m ((c : Thread nD τ).loc main_arg12)) :=
  (prep3_v93 (W12 m ρ c)).trans ((W12_main_arg12 m ρ c).trans (W3_arg12 m ρ c))
theorem W13_v94 : (W13 m ρ c (Proc.devRef .tc main_v94) : S1x512.Idx → EReal) = shapeCast ⟨2, ![1, 512]⟩ (m ((c : Thread nD τ).loc main_arg11)) cast512 :=
  (prep3_v94 (W12 m ρ c)).trans (congrArg (fun x => shapeCast ⟨2, ![1, 512]⟩ x cast512)
    ((W12_main_arg11 m ρ c).trans (W3_arg11 m ρ c)))
theorem W13_v95 : (W13 m ρ c (Proc.devRef .tc main_v95) : S1x10.Idx → EReal) = shapeCast ⟨2, ![1, 10]⟩ (m ((c : Thread nD τ).loc main_arg13)) cast10 :=
  (prep3_v95 (W12 m ρ c)).trans (congrArg (fun x => shapeCast ⟨2, ![1, 10]⟩ x cast10)
    ((W12_main_arg13 m ρ c).trans (W3_arg13 m ρ c)))

/-- The second result: the classifier head on the node features, row softmax. -/
theorem out1 : (W14 m ρ c (Proc.devRef .tc main_v96) : S50000x10.Idx → EReal)
    = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  refine (W14_arr m ρ c 5).trans ((Cert.KernelIdeal.SoftRegion.arr3 (V13 m ρ) c).trans ?_)
  show softRows (Cert.Mlp.outPlain (M := 50000) (K := 128) (N := 512) (P := 10)
      (W13 m ρ c (Proc.devRef .tc main_v91) : S50000x128.Idx → EReal) (W13 m ρ c (Proc.devRef .tc main_v92) : S128x512.Idx → EReal)
      (W13 m ρ c (Proc.devRef .tc main_v94) : S1x512.Idx → EReal) (W13 m ρ c (Proc.devRef .tc main_v93) : S512x10.Idx → EReal)
      (W13 m ρ c (Proc.devRef .tc main_v95) : S1x10.Idx → EReal)) = _
  rw [W13_v91, W13_v92, W13_v94, W13_v93, W13_v95]
  rfl

end Cert.KernelIdeal.Chain

end
-- ==== Proof.RefTails.lean ====
/-
  The reference's two row-wise tails, read as functions of the array they are applied to.

  After its second perceptron layer the reference finishes each head with a row-wise map spelt in host operations.
  For the first head: square every entry, sum the squares over the second axis, make the sums a column, take the
  square root, floor it at a tiny constant, broadcast the column along the rows and divide. For the second head: the
  row maxima (folded from minus infinity, and joined to minus infinity once more) made a column and broadcast along
  the rows, subtracted, exponentiated; the exponentials summed over the second axis, the sums made a column, broadcast
  along the rows, and divided by. Read at an index `(p, q)`, each broadcast reads its operand at row `p`, the sum over
  the second axis from the zero word is the sum over row `p`, and the maximum folded from minus infinity is the row's
  maximum: so the first tail is `unitRows` and the second `softRows` of the array they are applied to.
-/
import proofs.«180019_j14834817040879_1_alg».proof.Proof.Rows
import Idealize.ShloMosaic.PureOps.Ideal.Laws
import Idealize.ShloMosaic.PureOps.Reduce
import Idealize.ShloMosaic.Lib.Pipeline.Value
import Idealize.ShloMosaic.Lib.ValueIdx

noncomputable section

namespace Cert.RefTails

open Idealize.ShloMosaic Idealize.ShloMosaic.ValueIdx Cert.Gcn

/-! ## Column broadcasts read at an index -/

/-- A scalar broadcast to any shape reads the scalar everywhere. -/
theorem bcastScalar_apply {α : Type} {t : Shape} (h0 : (⟨0, ![]⟩ : Shape).BroadcastsInDim t ![])
    (c : (⟨0, ![]⟩ : Shape).Idx → α) (j : t.Idx) : broadcastInDim t ![] h0 c j = c ix0 :=
  broadcastInDim_apply ![] h0 c j ix0 (fun a => a.elim0)

/-- A length-`M` vector broadcast to an `[M, 1]` column reads, at `(p, u)`, the vector at `p`. -/
theorem bcastVecCol_apply {α : Type} {M : ℕ} (h1 : (⟨1, ![M]⟩ : Shape).BroadcastsInDim ⟨2, ![M, 1]⟩ ![0])
    (x : (⟨1, ![M]⟩ : Shape).Idx → α) (p : Fin M) (u : Fin 1) :
    broadcastInDim ⟨2, ![M, 1]⟩ ![0] h1 x (ix2 p u) = x (ix1 p) := by
  refine broadcastInDim_apply ![0] h1 x (ix2 p u) (ix1 p) (fun a => ?_)
  match a with
  | ⟨0, _⟩ =>
    show p.val = if M = 1 then 0 else p.val
    split
    · have := p.isLt; omega
    · rfl

/-- An `[M, 1]` column broadcast along its unit axis to `[M, N]` reads, at `(p, q)`, the column at row `p`. -/
theorem bcastCol_apply {α : Type} {M N : ℕ} (h2 : (⟨2, ![M, 1]⟩ : Shape).BroadcastsInDim ⟨2, ![M, N]⟩ ![0, 1])
    (v : (⟨2, ![M, 1]⟩ : Shape).Idx → α) (p : Fin M) (q : Fin N) :
    broadcastInDim ⟨2, ![M, N]⟩ ![0, 1] h2 v (ix2 p q) = v (ix2 p (0 : Fin 1)) := by
  refine broadcastInDim_apply ![0, 1] h2 v (ix2 p q) (ix2 p (0 : Fin 1)) (fun a => ?_)
  match a with
  | ⟨0, _⟩ =>
    show p.val = if M = 1 then 0 else p.val
    split
    · have := p.isLt; omega
    · rfl
  | ⟨1, _⟩ => show 0 = if (1 : ℕ) = 1 then 0 else q.val; rw [if_pos rfl]

/-- The index a reduction over the second axis inserts at row `p`, coordinate `k`, is `(p, k)`. -/
theorem lift_row {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- The host's sum over the second axis from the zero word, at row `p`: the sum over the row. -/
theorem hostRowSum_apply {M N : ℕ} (x : FVec Ideal ⟨2, ![M, N]⟩ .f32)
    (hr' : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduceAdd x (constant (F := Ideal) ⟨0, ![]⟩ .f32 0x00000000#32) hr' hu (ix1 p) = ∑ k : Fin N, x (ix2 p k) := by
  show Ideal.hostReduceAdd hr' x (Ideal.ofBits .f32 0x00000000#32) (ix1 p) = _
  rw [Ideal.hostReduceAdd_single hr' hr, Ideal.ofBits_zero_f32, zero_add]
  exact Finset.sum_congr rfl fun k _ => congrArg x (lift_row hr p k)

/-- The host's maximum over the second axis from minus infinity, at row `p`: the row's maximum. -/
theorem hostRowMax_apply {M N : ℕ} (x : FVec Ideal ⟨2, ![M, N]⟩ .f32)
    (hr' : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduce FloatOps.maximumf x (constant (F := Ideal) ⟨0, ![]⟩ .f32 0xFF800000#32) hr' hu (ix1 p) = rowTop x p := by
  rw [Host.reduce_eq_fold_single FloatOps.maximumf x _ hr' hr hu]
  have hf : (x ∘ hr.lift (ix1 p)) = fun k : Fin N => x (ix2 p k) := funext fun k => congrArg x (lift_row hr p k)
  exact congrArg (fun f => Finset.fold max (Ideal.ofBits .f32 0xFF800000#32) f (Finset.univ : Finset (Fin N))) hf

/-- Every row divided by its length floored at the tiny constant, as the host spells it: the squares summed over the
    second axis, the sums made a column, its square root floored, the column broadcast along the rows. -/
theorem host_unitRows {M N : ℕ} (z : FVec Ideal ⟨2, ![M, N]⟩ .f32)
    (hr' : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h0 : (⟨0, ![]⟩ : Shape).BroadcastsInDim ⟨2, ![M, 1]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) :
    Host.divf z (broadcastInDim ⟨2, ![M, N]⟩ ![0, 1] h2
        (maximumf (Host.sqrt (broadcastInDim ⟨2, ![M, 1]⟩ ![0] h1
            (Host.reduceAdd (mulf z z) (constant (F := Ideal) ⟨0, ![]⟩ .f32 0x00000000#32) hr' hu)))
          (broadcastInDim ⟨2, ![M, 1]⟩ ![] h0 (constant (F := Ideal) ⟨0, ![]⟩ .f32 0x2B8CBCCC#32))))
      = unitRows z := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [unitRows_apply]
  show Ideal.div (z (ix2 p q)) (broadcastInDim (s := ⟨2, ![M, 1]⟩) ⟨2, ![M, N]⟩ ![0, 1] h2 _ (ix2 p q)) = _
  rw [bcastCol_apply]
  show Ideal.div (z (ix2 p q)) (max (Ideal.sqrt (broadcastInDim (s := ⟨1, ![M]⟩) ⟨2, ![M, 1]⟩ ![0] h1 _ (ix2 p (0 : Fin 1))))
      (broadcastInDim (s := ⟨0, ![]⟩) ⟨2, ![M, 1]⟩ ![] h0 _ (ix2 p (0 : Fin 1)))) = _
  rw [bcastVecCol_apply, bcastScalar_apply, hostRowSum_apply _ hr' hr hu]
  rfl

/-- The exponentials of the distances below the row maxima, as the host spells them: the maxima folded from minus
    infinity, joined once more to minus infinity, made a column and broadcast along the rows. -/
theorem host_expRows {M N : ℕ} (z : FVec Ideal ⟨2, ![M, N]⟩ .f32)
    (hr' : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (hv : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) :
    Host.exp (subf z (broadcastInDim ⟨2, ![M, N]⟩ ![0, 1] h2 (broadcastInDim ⟨2, ![M, 1]⟩ ![0] h1
        (maximumf (broadcastInDim ⟨1, ![M]⟩ ![] hv (constant (F := Ideal) ⟨0, ![]⟩ .f32 0xFF800000#32))
          (Host.reduce FloatOps.maximumf z (constant (F := Ideal) ⟨0, ![]⟩ .f32 0xFF800000#32) hr' hu)))))
      = expRows z := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [expRows_apply]
  show Ideal.exp (z (ix2 p q) - broadcastInDim (s := ⟨2, ![M, 1]⟩) ⟨2, ![M, N]⟩ ![0, 1] h2 _ (ix2 p q)) = _
  rw [bcastCol_apply, bcastVecCol_apply]
  show Ideal.exp (z (ix2 p q) - max (broadcastInDim (s := ⟨0, ![]⟩) ⟨1, ![M]⟩ ![] hv _ (ix1 p))
      (Host.reduce FloatOps.maximumf z (constant (F := Ideal) ⟨0, ![]⟩ .f32 0xFF800000#32) hr' hu (ix1 p))) = _
  rw [bcastScalar_apply, hostRowMax_apply z hr' hr hu]
  have hb : ∀ y : EReal, max (Ideal.ofBits .f32 0xFF800000#32) y = y := by
    intro y; simp [Ideal.ofBits, Ideal.ieee]
  exact congrArg (fun t => Ideal.exp (z (ix2 p q) - t)) (hb _)

/-- Every entry divided by its row's sum, as the host spells it: the sums over the second axis made a column and
    broadcast along the rows. -/
theorem host_rowsOverSum {M N : ℕ} (e : FVec Ideal ⟨2, ![M, N]⟩ .f32)
    (hr' : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    Host.divf e (broadcastInDim ⟨2, ![M, N]⟩ ![0, 1] h2 (broadcastInDim ⟨2, ![M, 1]⟩ ![0] h1
        (Host.reduceAdd e (constant (F := Ideal) ⟨0, ![]⟩ .f32 0x00000000#32) hr' hu))) (ix2 p q)
      = Ideal.div (e (ix2 p q)) (∑ k : Fin N, e (ix2 p k)) := by
  show Ideal.div (e (ix2 p q)) (broadcastInDim (s := ⟨2, ![M, 1]⟩) ⟨2, ![M, N]⟩ ![0, 1] h2 _ (ix2 p q)) = _
  rw [bcastCol_apply, bcastVecCol_apply, hostRowSum_apply e hr' hr hu]

/-- The row softmax, as the host spells it. -/
theorem host_softRows {M N : ℕ} (z : FVec Ideal ⟨2, ![M, N]⟩ .f32) (e : FVec Ideal ⟨2, ![M, N]⟩ .f32) (he : e = expRows z)
    (hr' : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0])
    (h2 : (⟨2, ![M, 1]⟩ : Shape).BroadcastsInDim ⟨2, ![M, N]⟩ ![0, 1]) :
    Host.divf e (broadcastInDim ⟨2, ![M, N]⟩ ![0, 1] h2 (broadcastInDim ⟨2, ![M, 1]⟩ ![0] h1
        (Host.reduceAdd e (constant (F := Ideal) ⟨0, ![]⟩ .f32 0x00000000#32) hr' hu)))
      = softRows z := by
  subst he
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [host_rowsOverSum _ hr' hr hu h1 h2 p q]
  rfl

end Cert.RefTails

end
-- ==== Proof.RefValue.lean ====
/-
  The reference's two results are the specification's functions of the arguments.

  The reference computes each graph layer as a matrix product followed by the host chain the specification carries as
  one function (`aggA`, `aggB`): unfolding the stage names down to the product shows the same term, and the product,
  a `dot_general` over plain dimension numbers, is `rowsTimes`. Each head is two perceptron layers in the host's
  spelling (a `dot_general`, a vector broadcast twice, a maximum with a broadcast zero for the first layer), which
  are `Mlp.hidden` and `Mlp.outPlain`; and the two tails are `unitRows` and `softRows` of the array they are applied
  to. Every step is an equation between a stage and a function of the stage below it, with that lower stage kept as
  one opaque array.
-/
import proofs.«180019_j14834817040879_1_alg».proof.Proof.Spec
import proofs.«180019_j14834817040879_1_alg».proof.Proof.RefTails

noncomputable section

namespace Cert.ReferenceIdeal.RefValue

open Idealize.ShloMosaic Cert.ReferenceIdeal Cert.ReferenceIdeal.Gen Cert.ReferenceIdeal.Read Cert.LibPlainDot Cert.Gcn

/-! ## The two graph layers -/

/-- The first layer's matrix product. -/
theorem v15_eq (x0 : (⟨S50000x500, .f32⟩ : BufTy).Contents (Elt Ideal)) (x2 : (⟨S500x256, .f32⟩ : BufTy).Contents (Elt Ideal)) :
    val_main_v15 (F := Ideal) x0 x2 = rowsTimes (M := 50000) (K := 500) (N := 256) x0 x2 := by
  unfold val_main_v15
  exact dotGeneral_plain (M := 50000) (K := 500) (N := 256) none .single x0 x2

/-- The first layer: the host chain applied to the product. -/
theorem v47_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) :
    val_main_v47 (F := Ideal) x0 x1 x2 x3 = aggA x1 x3 (rowsTimes (M := 50000) (K := 500) (N := 256) x0 x2) := by
  have e : val_main_v47 (F := Ideal) x0 x1 x2 x3 = aggA x1 x3 (val_main_v15 (F := Ideal) x0 x2) := by
    unfold val_main_v47 val_main_v46 val_main_v43 val_main_v40 val_main_v37 aggA
    rfl
  exact e.trans (congrArg (aggA x1 x3) (v15_eq x0 x2))

/-- The second layer's matrix product. -/
theorem v48_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) :
    val_main_v48 (F := Ideal) x0 x1 x2 x3 x4
      = rowsTimes (M := 50000) (K := 256) (N := 128) (aggA x1 x3 (rowsTimes (M := 50000) (K := 500) (N := 256) x0 x2)) x4 := by
  unfold val_main_v48
  rw [v47_eq x0 x1 x2 x3]
  exact dotGeneral_plain (M := 50000) (K := 256) (N := 128) none .single _ x4

/-- The node features after both graph layers. -/
theorem v80_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) :
    val_main_v80 (F := Ideal) x0 x1 x2 x3 x4 x5 = hid2 x0 x1 x2 x3 x4 x5 := by
  have e : val_main_v80 (F := Ideal) x0 x1 x2 x3 x4 x5 = aggB x1 x5 (val_main_v48 (F := Ideal) x0 x1 x2 x3 x4) := by
    unfold val_main_v80 val_main_v79 val_main_v76 val_main_v73 val_main_v70 aggB
    rfl
  unfold hid2
  exact e.trans (congrArg (aggB x1 x5) (v48_eq x0 x1 x2 x3 x4))

/-! ## The projection head -/

/-- Its first layer. -/
theorem v85_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x512, .f32⟩ : BufTy).Contents (Elt Ideal)) (x7 : (⟨S512, .f32⟩ : BufTy).Contents (Elt Ideal)) :
    val_main_v85 (F := Ideal) x0 x1 x2 x3 x4 x5 x6 x7
      = Cert.Mlp.hidden (M := 50000) (K := 128) (N := 512) (val_main_v80 (F := Ideal) x0 x1 x2 x3 x4 x5) x6
          (shapeCast ⟨2, ![1, 512]⟩ x7 cast512) := by
  unfold val_main_v85 val_main_v84 val_main_v83 val_main_v82 val_main_v81 val_main_call3_v0 val_main_call3_cst
  generalize val_main_v80 (F := Ideal) x0 x1 x2 x3 x4 x5 = h
  exact Cert.Mlp.host_layer_floor (M := 50000) (K := 128) (N := 512) h x6 x7 _ rfl _ _ _ cast512

/-- Both its layers. -/
theorem v89_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x512, .f32⟩ : BufTy).Contents (Elt Ideal)) (x7 : (⟨S512, .f32⟩ : BufTy).Contents (Elt Ideal)) (x8 : (⟨S512x128, .f32⟩ : BufTy).Contents (Elt Ideal)) (x9 : (⟨S128, .f32⟩ : BufTy).Contents (Elt Ideal)) :
    val_main_v89 (F := Ideal) x0 x1 x2 x3 x4 x5 x6 x7 x8 x9
      = Cert.Mlp.outPlain (M := 50000) (K := 128) (N := 512) (P := 128) (val_main_v80 (F := Ideal) x0 x1 x2 x3 x4 x5) x6
          (shapeCast ⟨2, ![1, 512]⟩ x7 cast512) x8 (shapeCast ⟨2, ![1, 128]⟩ x9 cast128) := by
  unfold val_main_v89 val_main_v88 val_main_v87 val_main_v86
  rw [v85_eq x0 x1 x2 x3 x4 x5 x6 x7]
  generalize val_main_v80 (F := Ideal) x0 x1 x2 x3 x4 x5 = h
  exact Cert.Mlp.host_layer_plain (M := 50000) (K := 512) (N := 128)
    (Cert.Mlp.hidden (M := 50000) (K := 128) (N := 512) h x6 (shapeCast ⟨2, ![1, 512]⟩ x7 cast512)) x8 x9 _ rfl _ _ cast128

/-- Its tail: every row divided by its floored length. -/
theorem v94_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x512, .f32⟩ : BufTy).Contents (Elt Ideal)) (x7 : (⟨S512, .f32⟩ : BufTy).Contents (Elt Ideal)) (x8 : (⟨S512x128, .f32⟩ : BufTy).Contents (Elt Ideal)) (x9 : (⟨S128, .f32⟩ : BufTy).Contents (Elt Ideal)) :
    val_main_v94 (F := Ideal) x0 x1 x2 x3 x4 x5 x6 x7 x8 x9
      = unitRows (M := 50000) (N := 128) (val_main_v89 (F := Ideal) x0 x1 x2 x3 x4 x5 x6 x7 x8 x9) := by
  unfold val_main_v94 val_main_v93 val_main_v92 val_main_v91 val_main_v90 val_main_call4_v2 val_main_call4_v1
    val_main_call4_v0 val_main_call4_cst val_main_cst_16
  generalize val_main_v89 (F := Ideal) x0 x1 x2 x3 x4 x5 x6 x7 x8 x9 = z
  exact Cert.RefTails.host_unitRows (M := 50000) (N := 128) z _ (by decide) _ _ _ _

/-- The reference's first result is the specification's. -/
theorem out0_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x512, .f32⟩ : BufTy).Contents (Elt Ideal)) (x7 : (⟨S512, .f32⟩ : BufTy).Contents (Elt Ideal)) (x8 : (⟨S512x128, .f32⟩ : BufTy).Contents (Elt Ideal)) (x9 : (⟨S128, .f32⟩ : BufTy).Contents (Elt Ideal)) :
    val_main_v94 (F := Ideal) x0 x1 x2 x3 x4 x5 x6 x7 x8 x9 = outZ x0 x1 x2 x3 x4 x5 x6 x7 x8 x9 := by
  rw [v94_eq, v89_eq, v80_eq]
  rfl

/-! ## The classifier head -/

/-- Its first layer. -/
theorem v99_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x10 : (⟨S128x512, .f32⟩ : BufTy).Contents (Elt Ideal)) (x11 : (⟨S512, .f32⟩ : BufTy).Contents (Elt Ideal)) :
    val_main_v99 (F := Ideal) x0 x1 x2 x3 x4 x5 x10 x11
      = Cert.Mlp.hidden (M := 50000) (K := 128) (N := 512) (val_main_v80 (F := Ideal) x0 x1 x2 x3 x4 x5) x10
          (shapeCast ⟨2, ![1, 512]⟩ x11 cast512) := by
  unfold val_main_v99 val_main_v98 val_main_v97 val_main_v96 val_main_v95 val_main_call5_v0 val_main_call5_cst
  generalize val_main_v80 (F := Ideal) x0 x1 x2 x3 x4 x5 = h
  exact Cert.Mlp.host_layer_floor (M := 50000) (K := 128) (N := 512) h x10 x11 _ rfl _ _ _ cast512

/-- Both its layers. -/
theorem v103_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x10 : (⟨S128x512, .f32⟩ : BufTy).Contents (Elt Ideal)) (x11 : (⟨S512, .f32⟩ : BufTy).Contents (Elt Ideal)) (x12 : (⟨S512x10, .f32⟩ : BufTy).Contents (Elt Ideal)) (x13 : (⟨S10, .f32⟩ : BufTy).Contents (Elt Ideal)) :
    val_main_v103 (F := Ideal) x0 x1 x2 x3 x4 x5 x10 x11 x12 x13
      = Cert.Mlp.outPlain (M := 50000) (K := 128) (N := 512) (P := 10) (val_main_v80 (F := Ideal) x0 x1 x2 x3 x4 x5) x10
          (shapeCast ⟨2, ![1, 512]⟩ x11 cast512) x12 (shapeCast ⟨2, ![1, 10]⟩ x13 cast10) := by
  unfold val_main_v103 val_main_v102 val_main_v101 val_main_v100
  rw [v99_eq x0 x1 x2 x3 x4 x5 x10 x11]
  generalize val_main_v80 (F := Ideal) x0 x1 x2 x3 x4 x5 = h
  exact Cert.Mlp.host_layer_plain (M := 50000) (K := 512) (N := 10)
    (Cert.Mlp.hidden (M := 50000) (K := 128) (N := 512) h x10 (shapeCast ⟨2, ![1, 512]⟩ x11 cast512)) x12 x13 _ rfl _ _ cast10

/-- The exponentials of the distances below the row maxima. -/
theorem v110_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x10 : (⟨S128x512, .f32⟩ : BufTy).Contents (Elt Ideal)) (x11 : (⟨S512, .f32⟩ : BufTy).Contents (Elt Ideal)) (x12 : (⟨S512x10, .f32⟩ : BufTy).Contents (Elt Ideal)) (x13 : (⟨S10, .f32⟩ : BufTy).Contents (Elt Ideal)) :
    val_main_v110 (F := Ideal) x0 x1 x2 x3 x4 x5 x10 x11 x12 x13
      = expRows (M := 50000) (N := 10) (val_main_v103 (F := Ideal) x0 x1 x2 x3 x4 x5 x10 x11 x12 x13) := by
  unfold val_main_v110 val_main_v109 val_main_v108 val_main_v107 val_main_v106 val_main_v105 val_main_v104
    val_main_cst_17 val_main_cst_18
  generalize val_main_v103 (F := Ideal) x0 x1 x2 x3 x4 x5 x10 x11 x12 x13 = z
  exact Cert.RefTails.host_expRows (M := 50000) (N := 10) z _ (by decide) _ _ _ _

/-- Its tail: the row softmax. -/
theorem v114_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x10 : (⟨S128x512, .f32⟩ : BufTy).Contents (Elt Ideal)) (x11 : (⟨S512, .f32⟩ : BufTy).Contents (Elt Ideal)) (x12 : (⟨S512x10, .f32⟩ : BufTy).Contents (Elt Ideal)) (x13 : (⟨S10, .f32⟩ : BufTy).Contents (Elt Ideal)) :
    val_main_v114 (F := Ideal) x0 x1 x2 x3 x4 x5 x10 x11 x12 x13
      = softRows (M := 50000) (N := 10) (val_main_v103 (F := Ideal) x0 x1 x2 x3 x4 x5 x10 x11 x12 x13) := by
  have he := v110_eq x0 x1 x2 x3 x4 x5 x10 x11 x12 x13
  unfold val_main_v114 val_main_v113 val_main_v112 val_main_v111 val_main_cst_19
  generalize val_main_v110 (F := Ideal) x0 x1 x2 x3 x4 x5 x10 x11 x12 x13 = e at he ⊢
  generalize val_main_v103 (F := Ideal) x0 x1 x2 x3 x4 x5 x10 x11 x12 x13 = z at he ⊢
  exact Cert.RefTails.host_softRows (M := 50000) (N := 10) z e he _ (by decide) _ _ _

/-- The reference's second result is the specification's. -/
theorem out1_eq (x0 : (⟨S50000x500, .f32⟩ : BufTy).Contents (Elt Ideal)) (x1 : (⟨S2x800000, .i32⟩ : BufTy).Contents (Elt Ideal)) (x2 : (⟨S500x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x10 : (⟨S128x512, .f32⟩ : BufTy).Contents (Elt Ideal)) (x11 : (⟨S512, .f32⟩ : BufTy).Contents (Elt Ideal)) (x12 : (⟨S512x10, .f32⟩ : BufTy).Contents (Elt Ideal)) (x13 : (⟨S10, .f32⟩ : BufTy).Contents (Elt Ideal)) :
    val_main_v114 (F := Ideal) x0 x1 x2 x3 x4 x5 x10 x11 x12 x13 = outC x0 x1 x2 x3 x4 x5 x10 x11 x12 x13 := by
  rw [v114_eq, v103_eq, v80_eq]
  rfl

end Cert.ReferenceIdeal.RefValue

end
-- ==== Proof.lean ====
/- The proof of `Cert.Claim` (proofs.«180019_j14834817040879_1_alg».proof.Defs): frame_Kernel ∧ frame_KernelIdeal ∧ frame_ReferenceIdeal ∧
   preserves_Kernel_KernelIdeal ∧ algebraic_KernelIdeal_ReferenceIdeal.

   The network is two graph layers and two heads. On the extended reals both programs compute, from the same fourteen
   argument arrays, the same two functions (Proof/Spec.lean): `outZ`, the projection head's output with every row divided
   by its floored length, and `outC`, the classifier head's row softmax, each on the node features after both graph
   layers. In the kernel program the four matrix products and head blocks run as pipelined regions over blocks of 2000
   rows; an entry of a matrix product, of a two-layer perceptron, of a row normalisation or of a row softmax depends on its
   own row of the left operand only, so each region's array ends at the whole-array function (Proof/MatRegions.lean,
   Proof/UnitRegion.lean, Proof/SoftRegion.lean), and the host operations between the regions are the reference's own
   (Proof/KChain1.lean, Proof/KChain2.lean). The reference's two results are the same functions, read stage by stage (Proof/RefValue.lean).
   Narrowing to a shorter float format is the identity on the extended reals, a product accumulated from zero is the
   host's `dot_general`, and a sum along an axis is the host's `reduce`; none of these needs finiteness, and the precondition is never opened.

   The three frames are the generated ones (the reference's is its run with the two results dropped); `preserves` asks
   nothing, the idealized kernel being the kernel's own text read on the extended reals. -/
import proofs.«180019_j14834817040879_1_alg».proof.Defs
import proofs.«180019_j14834817040879_1_alg».proof.Proof.Gen.Kernel
import proofs.«180019_j14834817040879_1_alg».proof.Proof.Gen.Kernel.Skeleton
import proofs.«180019_j14834817040879_1_alg».proof.Proof.Gen.Kernel.Launch
import proofs.«180019_j14834817040879_1_alg».proof.Proof.Gen.Kernel.Points
import proofs.«180019_j14834817040879_1_alg».proof.Proof.Gen.Kernel.Frame
import proofs.«180019_j14834817040879_1_alg».proof.Proof.Gen.KernelIdeal
import proofs.«180019_j14834817040879_1_alg».proof.Proof.Gen.KernelIdeal.Skeleton
import proofs.«180019_j14834817040879_1_alg».proof.Proof.Gen.KernelIdeal.Launch
import proofs.«180019_j14834817040879_1_alg».proof.Proof.Gen.KernelIdeal.Points
import proofs.«180019_j14834817040879_1_alg».proof.Proof.Gen.KernelIdeal.Frame
import proofs.«180019_j14834817040879_1_alg».proof.Proof.Gen.ReferenceIdeal
import proofs.«180019_j14834817040879_1_alg».proof.Proof.Gen.Pre_finite_inputs
import proofs.«180019_j14834817040879_1_alg».proof.Proof.KRun
import proofs.«180019_j14834817040879_1_alg».proof.Proof.RefRun
import proofs.«180019_j14834817040879_1_alg».proof.Proof.RefRead
import proofs.«180019_j14834817040879_1_alg».proof.Proof.Spec
import proofs.«180019_j14834817040879_1_alg».proof.Proof.KChain2
import proofs.«180019_j14834817040879_1_alg».proof.Proof.RefValue
import Idealize.ShloMosaic.Adequacy
import Idealize.ShloMosaic.Init

noncomputable section

namespace Cert.Proof

open Idealize.ShloMosaic Idealize.ShloMosaic.TcCoe Idealize.SL.Sem

/-! ## The two results as functions of the launch memory -/

section Results

open Cert.KernelIdeal

/-- The first result on core `c`: `outZ` of the ten argument arrays it depends on. -/
abbrev firstResult (m : (ℓ : Loc nD τ sig) → Buf (Elt Ideal) ℓ) (c : Dev nD) :
    Buf (Elt Ideal) ((c.tc : Thread nD τ).loc main_v90) :=
  Cert.Gcn.outZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The second result on core `c`: `outC` of the ten argument arrays it depends on. -/
abbrev secondResult (m : (ℓ : Loc nD τ sig) → Buf (Elt Ideal) ℓ) (c : Dev nD) :
    Buf (Elt Ideal) ((c.tc : Thread nD τ).loc main_v96) :=
  Cert.Gcn.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13))

end Results

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's run with its two result conjuncts dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the fourteen arguments, the kernel program's two result arrays end at `outZ` and `outC`
    of its arguments, and the reference's at the same functions of its own arguments, which are the kernel's. -/
theorem algebraic : Cert.algebraic_KernelIdeal_ReferenceIdeal := by
  intro m ρ m' ρ' _ hagree
  refine ⟨firstResult m, secondResult m, ?_, ?_⟩
  · exact (θ_run Cert.KernelIdeal.defs _ _).mono
      (fun _ h c => ⟨(h c).1.trans (Cert.KernelIdeal.Chain.out0 m ρ c),
        (h c).2.1.trans (Cert.KernelIdeal.Chain.out1 m ρ c), (h c).2.2⟩)
      (Cert.KernelIdeal.ValueRun.run (F := Ideal) m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    · obtain ⟨a0, a1, a2, a3, a4, a5, a6, a7, a8, a9, -⟩ := hagree c
      rw [Cert.ReferenceIdeal.Read.val_main_v94_eq, Cert.ReferenceIdeal.RefValue.out0_eq,
        a0, a1, a2, a3, a4, a5, a6, a7, a8, a9]
    · obtain ⟨a0, a1, a2, a3, a4, a5, -, -, -, -, a10, a11, a12, a13⟩ := hagree c
      rw [Cert.ReferenceIdeal.Read.val_main_v114_eq, Cert.ReferenceIdeal.RefValue.out1_eq,
        a0, a1, a2, a3, a4, a5, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
